-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4 : Shape := ⟨1, ![4]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x8192x3 .f32) (main_arg1 : FVec F S4x8192x3 .f32) (main_arg2 : FVec F S4 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S4x8192x3 : Shape := ⟨3, ![4, 8192, 3]⟩
abbrev S4 : Shape := ⟨1, ![4]⟩
abbrev S4x8192 : Shape := ⟨2, ![4, 8192]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S4x1 : Shape := ⟨2, ![4, 1]⟩
abbrev S_ : Shape := ⟨0, ![]⟩

abbrev nBuf : Space → Nat
  | .hbm => 25
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4, .f32⟩
  | .hbm, ⟨3, _⟩ => ⟨S4x8192, .f32⟩
  | .hbm, ⟨4, _⟩ => ⟨S4x8192, .f32⟩
  | .hbm, ⟨5, _⟩ => ⟨S4x1, .f32⟩
  | .hbm, ⟨6, _⟩ => ⟨S4x8192, .f32⟩
  | .hbm, ⟨7, _⟩ => ⟨S4x8192, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512x3, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512, .f32⟩
  | .local _ .vmem, ⟨11, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_8 : BitVec 32 := 0#32
  let v40 : BitVec 1 := Scalar.cmpi .ne v39 c0_i32_8
  v40

def k0_cond2 (i : grid0.Coords) : BitVec 1 :=
  let arg1 : BitVec 32 := BitVec.ofNat 32 (i 1).val
  let c0_i32_9 : BitVec 32 := 0#32
  let v41 : BitVec 1 := Scalar.cmpi .ne arg1 c0_i32_9
  let v42 : BitVec 32 := Scalar.extui v41
  let c0_i32_10 : BitVec 32 := 0#32
  let v43 : BitVec 1 := Scalar.cmpi .ne v42 c0_i32_10
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_8 : BitVec 32 := 0#32
  let v40 : BitVec 1 := Scalar.cmpi .ne v39 c0_i32_8
  v40

def k1_cond2 (i : grid1.Coords) : BitVec 1 :=
  let arg1 : BitVec 32 := BitVec.ofNat 32 (i 1).val
  let c0_i32_9 : BitVec 32 := 0#32
  let v41 : BitVec 1 := Scalar.cmpi .ne arg1 c0_i32_9
  let v42 : BitVec 32 := Scalar.extui v41
  let c0_i32_10 : BitVec 32 := 0#32
  let v43 : BitVec 1 := Scalar.cmpi .ne v42 c0_i32_10
  v43

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  slices_S4x512x3_o0_0_0_S4x512x1 : S4x512x3.Slices ![0, 0, 0] S4x512x1
  shapeCasts_S4x512x1_S4x512 : S4x512x1.ShapeCasts S4x512
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x512x3_o0_0_1_S4x512x1 : S4x512x3.Slices ![0, 0, 1] S4x512x1
  slices_S4x512x3_o0_0_2_S4x512x1 : S4x512x3.Slices ![0, 0, 2] S4x512x1
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S4_S4x1 : S4.ShapeCasts S4x1
  bcast_S4x1_S4x8192_0_1 : S4x1.BroadcastsInDim S4x8192 (![0, 1] : Fin 2 → Fin S4x8192.rank)
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4 : Shape := ⟨1, ![4]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4x1 : Shape := ⟨2, ![4, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x1, .f32⟩
  | .hbm, ⟨24, _⟩ => ⟨S4x8192, .f32⟩
  | .hbm, ⟨25, _⟩ => ⟨S4x8192, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  shapeCasts_S4_S4x1 : S4.ShapeCasts S4x1
  bcast_S4x1_S4x8192_0_1 : S4x1.BroadcastsInDim S4x8192 (![0, 1] : Fin 2 → Fin S4x8192.rank)
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB.Run0.lean ====
/-
  Region 0 of the program (the first pairwise-distance call, rows = first point set, columns = second).
  The grid is 16 x 16; point t has row block t / 16 and column block t % 16.  The output window's block
  depends on the row block only, so its staging buffer is carried across the 16 column blocks of one row
  block: at column block 0 the body stores the block's row minima, at every later column block it stores
  the minimum of what the buffer holds and the new block's row minima.  This module states what the
  output buffer holds after every point (by recursion on the point), shows the body does exactly that in
  each of its two control cases, and assembles the per-point obligation of the pipeline.
  Everything is stated for an arbitrary float instance and for arbitrary contents V of the buffers at the
  region's entry.
-/
import proofs.«103180_j3006477107867_1_alg».proof.Proof.Gen.Kernel.Launch
import proofs.«103180_j3006477107867_1_alg».proof.Proof.Gen.Kernel.Skeleton
import proofs.«103180_j3006477107867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging buffer holds the row block at every point (it is fetched when the row block changes and
    the body leaves it in place). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds the column block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two control cases, decided over the grid -/

/-- The first branch (store the block's minima) is taken exactly at column block 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (fold the block's minima into the buffer) is taken exactly at the other column blocks. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores at every grid point: the output window is never idle. -/
theorem live2 : ∀ i : grid0.Coords, cfg0.idle 2 i = false := by
  intro i
  have h : ∀ x : Fin 16,
      (!(Scalar.cmpi .ne (Scalar.extui (Scalar.cmpi .eq (BitVec.ofNat 32 x.val) 0#32)) 0#32 == 1#1)
        && !(Scalar.cmpi .ne (Scalar.extui (Scalar.cmpi .ne (BitVec.ofNat 32 x.val) 0#32)) 0#32 == 1#1)) = false := by decide
  exact h (i 1)

/-! ## The staging memrefs at a point -/

abbrev VO : View sig .tc .vmem S4x512 .f32 := (Memref.whole cc0_stg2_0 : Memref sig .tc .vmem S4x512 .f32).view
abbrev ms0 (t : Fin cfg0.N) : Memref sig .tc .vmem S4x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x512 .f32 := win0_2.stage (cfg0.slots t 2)
abbrev hs2 (t : Fin cfg0.N) : (ms2 t).IsWhole := hstage0_2 ((cfg0.slots t 2).cast nbuf0_2)

/-! ## The body in each case -/

set_option maxHeartbeats 1000000 in
/-- Column block 0: with the two input buffers at `x0`, `x1` and the output buffer at anything, the body runs to the end,
    leaves the inputs as they were and the output buffer with the listed stores written (the list is found by the run). -/
noncomputable def kernelRunA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__min_sqdist_kernel i arg2 harg2 arg3 harg3 arg4 harg4) K } := by
  refine ⟨?_, fun E K => ?run⟩
  case run =>
    simp only [cc0__min_sqdist_kernel_eq_skeleton]; unfold cc0__min_sqdist_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later column block: the same, with the output buffer at the running contents `xo`, which the body reads. -/
noncomputable def kernelRunB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__min_sqdist_kernel i arg2 harg2 arg3 harg3 arg4 harg4) K } := by
  refine ⟨?_, fun E K => ?run⟩
  case run =>
    simp only [cc0__min_sqdist_kernel_eq_skeleton]; unfold cc0__min_sqdist_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Reg0

end
-- ==== Proof.KB.Body0.lean ====
/-
  Region 0, continued: what the output window's staging buffer holds after every grid point — the block's row minima
  at column block 0, and at a later column block the minimum of the running contents with the new block's row minima —
  the pipeline's proof data built from it, and the per-point obligation: at every point the body takes the buffers the
  pipeline hands it to the buffers the proof data name.
-/
import proofs.«103180_j3006477107867_1_alg».proof.Proof.KB.Run0

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer -/

/-- The one store of column block 0 covers the whole output block. -/
theorem coverA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) (y : S4x512.Idx) :
    ∃ pc ∈ (kernelRunA c i arg2 harg2 arg3 harg3 arg4 harg4 hc1 hc2 x0 x1).1, y ∈ pc.1.set :=
  View.cover_of_tiledL (kernelRunA c i arg2 harg2 arg3 harg3 arg4 harg4 hc1 hc2 x0 x1).1 S4x512.size (by sl_kernel_rfl) y

/-- What column block 0 leaves in the output buffer: its store read back. -/
def outA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) : Vec F S4x512 .f32 :=
  VO.read (Elt F) (VO.writes (Elt F) VO.junk (kernelRunA c i arg2 harg2 arg3 harg3 arg4 harg4 hc1 hc2 x0 x1).1)

/-- The one store of a later column block covers the whole output block. -/
theorem coverB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) (y : S4x512.Idx) :
    ∃ pc ∈ (kernelRunB c i arg2 harg2 arg3 harg3 arg4 harg4 hc1 hc2 x0 x1 xo).1, y ∈ pc.1.set :=
  View.cover_of_tiledL (kernelRunB c i arg2 harg2 arg3 harg3 arg4 harg4 hc1 hc2 x0 x1 xo).1 S4x512.size (by sl_kernel_rfl) y

/-- What a later column block leaves in the output buffer. -/
def outB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) : Vec F S4x512 .f32 :=
  VO.read (Elt F) (VO.writes (Elt F) VO.junk (kernelRunB c i arg2 harg2 arg3 harg3 arg4 harg4 hc1 hc2 x0 x1 xo).1)

/-! ## The running contents of the output buffer -/

/-- What the output window's staging buffer holds after the body at position `n`: a fresh start at every column block 0,
    and otherwise the fold of the new block into what position `n - 1` left. -/
def accAt (c : Dev nD) : (n : ℕ) → n < cfg0.N → Vec F S4x512 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((hcond1 ⟨0, hn⟩).mpr (Nat.zero_mod _)) (fun h => (hcond2 ⟨0, hn⟩).mp h (Nat.zero_mod _)) (iblk V c 0 ⟨0, hn⟩) (iblk V c 1 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond1 ⟨n + 1, hn⟩).mpr h0) (fun h => (hcond2 ⟨n + 1, hn⟩).mp h h0) (iblk V c 0 ⟨n + 1, hn⟩) (iblk V c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond1 ⟨n + 1, hn⟩).mp h)) ((hcond2 ⟨n + 1, hn⟩).mpr h0) (iblk V c 0 ⟨n + 1, hn⟩) (iblk V c 1 ⟨n + 1, hn⟩)
        (accAt c n (Nat.lt_of_succ_lt hn))

theorem accAt_A (c : Dev nD) (t : Fin cfg0.N) (h0 : t.val % 16 = 0) :
    accAt V c t.val t.isLt = outA c (grid0.coords t) (ms0 t) (hs0 t) (ms1 t) (hs1 t) (ms2 t) (hs2 t)
      ((hcond1 t).mpr h0) (fun h => (hcond2 t).mp h h0) (iblk V c 0 t) (iblk V c 1 t) := by
  obtain ⟨n, hn⟩ := t
  cases n with
  | zero => exact rfl
  | succ n => exact (dif_pos h0).trans rfl

theorem accAt_B (c : Dev nD) (t : Fin cfg0.N) (h0 : ¬ t.val % 16 = 0) :
    accAt V c t.val t.isLt = outB c (grid0.coords t) (ms0 t) (hs0 t) (ms1 t) (hs1 t) (ms2 t) (hs2 t)
      (fun h => h0 ((hcond1 t).mp h)) ((hcond2 t).mpr h0) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running contents; the scoped rest and the generator register pass
    through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- At a later column block the output buffer holds what the body left at the point before: the block index has not moved,
    and the buffer is written back only after column block 15. -/
theorem before_2_B (c : Dev nD) (t : Fin cfg0.N) (h0 : ¬ t.val % 16 = 0) (d) :
    (dat V c).before 2 t d = accAt V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live2 (fun _ _ => rfl)]
  dsimp only [dat]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 800000 in
/-- The body at any point: the inputs' buffers hold their blocks; the column block decides the case; at a later column
    block the output buffer holds the running contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  have hN : t.val < 256 := lt_of_lt_of_eq t.isLt (show cfg0.N = 256 from N_0)
  by_cases h0 : t.val % 16 = 0
  · rw [accAt_A V c t h0]
    unfold outA
    iintro ⟨HΦ, Ho, ⟨%d0, H0⟩, ⟨%d1, H1⟩, ⟨%d2, H2⟩⟩
    iapply ((kernelRunA c (grid0.coords t) _ _ _ _ _ _ ((hcond1 t).mpr h0) (fun h => (hcond2 t).mp h h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [accAt_B V c t h0]
    simp only [before_2_B V c t h0]
    unfold outB
    iintro ⟨HΦ, Ho, ⟨%d0, H0⟩, ⟨%d1, H1⟩, ⟨%d2, H2⟩⟩
    iapply ((kernelRunB c (grid0.coords t) _ _ _ _ _ _ (fun h => h0 ((hcond1 t).mp h)) ((hcond2 t).mpr h0) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The pipeline's body obligation, at every point. -/
theorem body_obligation (c : Dev nD) : BodyObligation (dat (F := F) V c) (defs₀ (F := F)) Variants.none () Set.univ := fun t => by
  rw [bigSep_W0, bigSep_W0, live2 (cfg0.grid.coords t)]
  exact sound_body V c t

end Cert.Kernel.Reg0

end
-- ==== Proof.KB.Run1.lean ====
/-
  Region 1 of the program (the second pairwise-distance call: rows = second point set, columns = first).
  The grid is 16 x 16; point t has row block t / 16 and column block t % 16.  The output window's block
  depends on the row block only, so its staging buffer is carried across the 16 column blocks of one row
  block: at column block 0 the body stores the block's row minima, at every later column block it stores
  the minimum of what the buffer holds and the new block's row minima.  This module states what the
  output buffer holds after every point (by recursion on the point), shows the body does exactly that in
  each of its two control cases, and assembles the per-point obligation of the pipeline.
  Everything is stated for an arbitrary float instance and for arbitrary contents V of the buffers at the
  region's entry.
-/
import proofs.«103180_j3006477107867_1_alg».proof.Proof.Gen.Kernel.Launch
import proofs.«103180_j3006477107867_1_alg».proof.Proof.Gen.Kernel.Skeleton
import proofs.«103180_j3006477107867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging buffer holds the row block at every point (it is fetched when the row block changes and
    the body leaves it in place). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds the column block at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two control cases, decided over the grid -/

/-- The first branch (store the block's minima) is taken exactly at column block 0. -/
theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The second branch (fold the block's minima into the buffer) is taken exactly at the other column blocks. -/
theorem hcond2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- One of the two branches stores at every grid point: the output window is never idle. -/
theorem live2 : ∀ i : grid1.Coords, cfg1.idle 2 i = false := by
  intro i
  have h : ∀ x : Fin 16,
      (!(Scalar.cmpi .ne (Scalar.extui (Scalar.cmpi .eq (BitVec.ofNat 32 x.val) 0#32)) 0#32 == 1#1)
        && !(Scalar.cmpi .ne (Scalar.extui (Scalar.cmpi .ne (BitVec.ofNat 32 x.val) 0#32)) 0#32 == 1#1)) = false := by decide
  exact h (i 1)

/-! ## The staging memrefs at a point -/

abbrev VO : View sig .tc .vmem S4x512 .f32 := (Memref.whole cc1_stg2_0 : Memref sig .tc .vmem S4x512 .f32).view
abbrev ms0 (t : Fin cfg1.N) : Memref sig .tc .vmem S4x512x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4x512x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S4x512 .f32 := win1_2.stage (cfg1.slots t 2)
abbrev hs2 (t : Fin cfg1.N) : (ms2 t).IsWhole := hstage1_2 ((cfg1.slots t 2).cast nbuf1_2)

/-! ## The body in each case -/

set_option maxHeartbeats 1000000 in
/-- Column block 0: with the two input buffers at `x0`, `x1` and the output buffer at anything, the body runs to the end,
    leaves the inputs as they were and the output buffer with the listed stores written (the list is found by the run). -/
noncomputable def kernelRunA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__min_sqdist_kernel i arg2 harg2 arg3 harg3 arg4 harg4) K } := by
  refine ⟨?_, fun E K => ?run⟩
  case run =>
    simp only [cc1__min_sqdist_kernel_eq_skeleton]; unfold cc1__min_sqdist_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later column block: the same, with the output buffer at the running contents `xo`, which the body reads. -/
noncomputable def kernelRunB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__min_sqdist_kernel i arg2 harg2 arg3 harg3 arg4 harg4) K } := by
  refine ⟨?_, fun E K => ?run⟩
  case run =>
    simp only [cc1__min_sqdist_kernel_eq_skeleton]; unfold cc1__min_sqdist_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Reg1

end
-- ==== Proof.KB.Body1.lean ====
/-
  Region 1, continued: what the output window's staging buffer holds after every grid point — the block's row minima
  at column block 0, and at a later column block the minimum of the running contents with the new block's row minima —
  the pipeline's proof data built from it, and the per-point obligation: at every point the body takes the buffers the
  pipeline hands it to the buffers the proof data name.
-/
import proofs.«103180_j3006477107867_1_alg».proof.Proof.KB.Run1

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer -/

/-- The one store of column block 0 covers the whole output block. -/
theorem coverA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) (y : S4x512.Idx) :
    ∃ pc ∈ (kernelRunA c i arg2 harg2 arg3 harg3 arg4 harg4 hc1 hc2 x0 x1).1, y ∈ pc.1.set :=
  View.cover_of_tiledL (kernelRunA c i arg2 harg2 arg3 harg3 arg4 harg4 hc1 hc2 x0 x1).1 S4x512.size (by sl_kernel_rfl) y

/-- What column block 0 leaves in the output buffer: its store read back. -/
def outA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) : Vec F S4x512 .f32 :=
  VO.read (Elt F) (VO.writes (Elt F) VO.junk (kernelRunA c i arg2 harg2 arg3 harg3 arg4 harg4 hc1 hc2 x0 x1).1)

/-- The one store of a later column block covers the whole output block. -/
theorem coverB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) (y : S4x512.Idx) :
    ∃ pc ∈ (kernelRunB c i arg2 harg2 arg3 harg3 arg4 harg4 hc1 hc2 x0 x1 xo).1, y ∈ pc.1.set :=
  View.cover_of_tiledL (kernelRunB c i arg2 harg2 arg3 harg3 arg4 harg4 hc1 hc2 x0 x1 xo).1 S4x512.size (by sl_kernel_rfl) y

/-- What a later column block leaves in the output buffer. -/
def outB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) : Vec F S4x512 .f32 :=
  VO.read (Elt F) (VO.writes (Elt F) VO.junk (kernelRunB c i arg2 harg2 arg3 harg3 arg4 harg4 hc1 hc2 x0 x1 xo).1)

/-! ## The running contents of the output buffer -/

/-- What the output window's staging buffer holds after the body at position `n`: a fresh start at every column block 0,
    and otherwise the fold of the new block into what position `n - 1` left. -/
def accAt (c : Dev nD) : (n : ℕ) → n < cfg1.N → Vec F S4x512 .f32
  | 0, hn => outA c (grid1.coords ⟨0, hn⟩) (ms0 ⟨0, hn⟩) (hs0 ⟨0, hn⟩) (ms1 ⟨0, hn⟩) (hs1 ⟨0, hn⟩) (ms2 ⟨0, hn⟩) (hs2 ⟨0, hn⟩)
      ((hcond1 ⟨0, hn⟩).mpr (Nat.zero_mod _)) (fun h => (hcond2 ⟨0, hn⟩).mp h (Nat.zero_mod _)) (iblk V c 0 ⟨0, hn⟩) (iblk V c 1 ⟨0, hn⟩)
  | n + 1, hn =>
    if h0 : (n + 1) % 16 = 0 then
      outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond1 ⟨n + 1, hn⟩).mpr h0) (fun h => (hcond2 ⟨n + 1, hn⟩).mp h h0) (iblk V c 0 ⟨n + 1, hn⟩) (iblk V c 1 ⟨n + 1, hn⟩)
    else
      outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond1 ⟨n + 1, hn⟩).mp h)) ((hcond2 ⟨n + 1, hn⟩).mpr h0) (iblk V c 0 ⟨n + 1, hn⟩) (iblk V c 1 ⟨n + 1, hn⟩)
        (accAt c n (Nat.lt_of_succ_lt hn))

theorem accAt_A (c : Dev nD) (t : Fin cfg1.N) (h0 : t.val % 16 = 0) :
    accAt V c t.val t.isLt = outA c (grid1.coords t) (ms0 t) (hs0 t) (ms1 t) (hs1 t) (ms2 t) (hs2 t)
      ((hcond1 t).mpr h0) (fun h => (hcond2 t).mp h h0) (iblk V c 0 t) (iblk V c 1 t) := by
  obtain ⟨n, hn⟩ := t
  cases n with
  | zero => exact rfl
  | succ n => exact (dif_pos h0).trans rfl

theorem accAt_B (c : Dev nD) (t : Fin cfg1.N) (h0 : ¬ t.val % 16 = 0) :
    accAt V c t.val t.isLt = outB c (grid1.coords t) (ms0 t) (hs0 t) (ms1 t) (hs1 t) (ms2 t) (hs2 t)
      (fun h => h0 ((hcond1 t).mp h)) ((hcond2 t).mpr h0) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running contents; the scoped rest and the generator register pass
    through untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = accAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- At a later column block the output buffer holds what the body left at the point before: the block index has not moved,
    and the buffer is written back only after column block 15. -/
theorem before_2_B (c : Dev nD) (t : Fin cfg1.N) (h0 : ¬ t.val % 16 = 0) (d) :
    (dat V c).before 2 t d = accAt V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    live2 (fun _ _ => rfl)]
  dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 800000 in
/-- The body at any point: the inputs' buffers hold their blocks; the column block decides the case; at a later column
    block the output buffer holds the running contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  have hN : t.val < 256 := lt_of_lt_of_eq t.isLt (show cfg1.N = 256 from N_1)
  by_cases h0 : t.val % 16 = 0
  · rw [accAt_A V c t h0]
    unfold outA
    iintro ⟨HΦ, Ho, ⟨%d0, H0⟩, ⟨%d1, H1⟩, ⟨%d2, H2⟩⟩
    iapply ((kernelRunA c (grid1.coords t) _ _ _ _ _ _ ((hcond1 t).mpr h0) (fun h => (hcond2 t).mp h h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [accAt_B V c t h0]
    simp only [before_2_B V c t h0]
    unfold outB
    iintro ⟨HΦ, Ho, ⟨%d0, H0⟩, ⟨%d1, H1⟩, ⟨%d2, H2⟩⟩
    iapply ((kernelRunB c (grid1.coords t) _ _ _ _ _ _ (fun h => h0 ((hcond1 t).mp h)) ((hcond2 t).mpr h0) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1, live2 (cfg1.grid.coords t)]
  exact sound_body V c t

end Cert.Kernel.Reg1

end
-- ==== Proof.KB.Run.lean ====
/-
  The whole program as a sequence of three segments — the first pairwise-distance call, the second one with the two
  point sets exchanged, and the host operations that weight, average and sum the two arrays of minima — and its run:
  from any launch memory every weakly fair execution terminates without a fault, and in the final memory every
  unscoped buffer holds the contents named here.  The contents at each boundary are a fold from the launch memory:
  a call replaces its output array by what its write-backs leave (the pipeline's proof data read at the last grid
  point) and keeps everything else; the host stretch applies its operations in order.  Both frame claims and the value
  of the result are read off this one run.
-/
import proofs.«103180_j3006477107867_1_alg».proof.Proof.KB.Body0
import proofs.«103180_j3006477107867_1_alg».proof.Proof.KB.Body1

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wa : Dev nD → Valuation τ sig (Elt F) := fun c b => (s₀ m ρ).mem ((c : Dev nD), b)
/-- The same read at the TensorCore's references (what the first call's proof data take). -/
abbrev Va : (c : Dev nD) → (b : Ref sig .tc) → Buf (Elt F) ((c : Thread nD τ).loc b) := fun c b => Wa m ρ c b

/-- After the first call: its arrays at what the pipeline leaves, every other buffer as entered. -/
def Wb (c : Dev nD) : Valuation τ sig (Elt F) :=
  Pipeline.withArrays spec0 c (Wa m ρ c) fun w => (Reg0.dat (Va m ρ) c).arrAt w cfg0.N
theorem Wb_arr (c : Dev nD) (w : Fin cfg0.W) :
    Wb m ρ c (Proc.devRef .tc (Pipeline.arrRef spec0 w)) = (Reg0.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (Reg0.dat (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the second call. -/
def Wc (c : Dev nD) : Valuation τ sig (Elt F) :=
  Pipeline.withArrays spec1 c (Wb m ρ c) fun w => (Reg1.dat (Vb m ρ) c).arrAt w cfg1.N
theorem Wc_arr (c : Dev nD) (w : Fin cfg1.W) :
    Wc m ρ c (Proc.devRef .tc (Pipeline.arrRef spec1 w)) = (Reg1.dat (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (Reg1.dat (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After the host operations: the end. -/
abbrev Wd : Dev nD → Valuation τ sig (Elt F) := fun c => StableHlo.after hostOps2 (Wc m ρ c)

/-! ## The proof data family and the thread state -/

abbrev admK : (p : Fin 2) → (pcfgs (F := F) p).Adm := fun p => (cfgs p).toPCfg_adm
/-- Every pipeline's proof data, each at its call's entry contents. -/
def pdatsK : (p : Fin 2) → (c : Dev nD) → Dat τ (Elt F) Unit ℕ (UR sig nD τ) ℕ (Pipeline.pin (pcfgs (F := F)) admK p) c
  | ⟨0, _⟩ => fun c => Reg0.dat (Va m ρ) c
  | ⟨1, _⟩ => fun c => Reg1.dat (Vb m ρ) c
abbrev 𝒱K : Variants := Variants.none
abbrev LK : GSem nD τ sig → Finset Unit := fun _ => ∅
abbrev lvK : GSem nD τ sig → Unit → ℕ := fun _ _ => 0
/-- What rides beside the buffers through every segment: the generator register at some state and nothing owed. -/
abbrev RK (c : Dev nD) : sProp 𝕄 := iprop((∃ r, prngReg c r) ∗ ∃ W, owes (c : Thread nD τ) (0 : CellTallies nD τ sig Unit) W)

theorem hostOps2_freshK : (hostOps2 : List (HloOp τ sig (Elt F))).Forall fun op => op.fresh = ∅ := by
  simp only [List.Forall]; repeat' constructor

abbrev hsegK (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_freshK) op h) W RK

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnK (c : Dev nD) : sProp 𝕄 := iprop(StableHlo.held (c : Thread nD τ) (Pipeline.ucRefs τ sig) (Wd m ρ c) ∗ ∃ r, prngReg c r)

/-! ## The calls as segments -/

set_option backward.isDefEq.respectTransparency.types false in
/-- The first call over the thread state: entered from every unscoped buffer at the launch contents, left at `Wb`. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (Reg0.body_obligation (Va m ρ) c).loose
  hwaits := Pipeline.hwaits_of_owed_zero _ _ _ _ LK lvK 0 fun _ _ => rfl
  pre c := iprop(StableHlo.held (c : Thread nD τ) (Pipeline.ucRefs τ sig) (Wa m ρ c) ∗ RK c)
  post c := iprop(StableHlo.held (c : Thread nD τ) (Pipeline.ucRefs τ sig) (Wb m ρ c) ∗ RK c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Va m ρ c) (Vb m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from `Wb`, left at `Wc`. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (Reg1.body_obligation (Vb m ρ) c).loose
  hwaits := Pipeline.hwaits_of_owed_zero _ _ _ _ LK lvK 1 fun _ _ => rfl
  pre c := iprop(StableHlo.held (c : Thread nD τ) (Pipeline.ucRefs τ sig) (Wb m ρ c) ∗ RK c)
  post c := iprop(StableHlo.held (c : Thread nD τ) (Pipeline.ucRefs τ sig) (Wc m ρ c) ∗ RK c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Vb m ρ c) (Vc m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsK : List (Pipeline.Seg (pcfgs (F := F)) admK (pdatsK m ρ) () defs₀ 𝒱K LK lvK) :=
  [ .region (reg0 m ρ),
    .region (reg1 m ρ),
    .host (hsegK (Wc m ρ)) ]

theorem main_run (c : Dev nD) : main (F := F) c = Pipeline.Seg.run (segsK m ρ) := (main_chain c).trans (by chain_rfl)

set_option backward.isDefEq.respectTransparency.types false in
/-- THE RUN: from any launch memory with zero counters every weakly fair execution terminates, nothing faulting, and the
    final memory holds, at every unscoped buffer, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) admK (pdatsK m ρ) () cellOf_inj emb₁ defs₀ 𝒱K LK lvK m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ RK c)) (Tₙ := TnK m ρ)
    (hch := ⟨fun _ => .rfl, fun _ => .rfl, fun _ => .rfl, fun c => by
      show (iprop(StableHlo.held (c : Thread nD τ) (Pipeline.ucRefs τ sig) (Wd m ρ c) ∗ RK c) : sProp 𝕄)
        ⊢ iprop(TnK m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h => h)

/-! ## The arguments end as launched -/

theorem Wd_of_unwritten (c : Dev nD) (b : Ref sig .tc)
    (hb : (hostOps2 : List (HloOp τ sig (Elt F))).Forall fun op => Proc.devRef .tc b ∉ op.writes) :
    Wd m ρ c (Proc.devRef .tc b) = Wc m ρ c (Proc.devRef .tc b) :=
  StableHlo.after_of_forall_not_mem (b := Proc.devRef .tc b) _ _ (List.forall_iff_forall_mem.mp hb)

end Cert.Kernel.Whole

end
-- ==== Proof.KB.Args.lean ====
/-
  The three argument arrays end as launched: neither call writes them (each reads them through input windows, whose
  arrays the pipeline leaves as it found them) and no host operation writes them; so the fold of boundary contents, read
  at an argument, walks back to the launch memory.  With the whole-program run this is the frame claim, at any float
  instance.
-/
import proofs.«103180_j3006477107867_1_alg».proof.Proof.KB.Run
import proofs.«103180_j3006477107867_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes is, at the end, what it was after the second call. -/
theorem Wd_of (c : Dev nD) (r : Ref sig .tc) (h : r ∉ hostOps2_W) :
    Wd m ρ c (Proc.devRef .tc r) = Wc m ρ c (Proc.devRef .tc r) :=
  StableHlo.after_of_writes_sub hostOps2 _ hostOps2_writes h

theorem Wb_main_arg0 (c : Dev nD) : Wb m ρ c (Proc.devRef .tc main_arg0) = m ((c : Thread nD τ).loc main_arg0) :=
  calc Wb m ρ c (Proc.devRef .tc main_arg0)
    _ = Wa m ρ c (Proc.devRef .tc main_arg0) := (Wb_arr m ρ c 0).trans (((Reg0.dat (Va m ρ) c).arrAt_in 0 rfl _).trans (Reg0.A_eq (Va m ρ) c 0))
    _ = m ((c : Thread nD τ).loc main_arg0) := rfl
theorem Wb_main_arg1 (c : Dev nD) : Wb m ρ c (Proc.devRef .tc main_arg1) = m ((c : Thread nD τ).loc main_arg1) :=
  calc Wb m ρ c (Proc.devRef .tc main_arg1)
    _ = Wa m ρ c (Proc.devRef .tc main_arg1) := (Wb_arr m ρ c 1).trans (((Reg0.dat (Va m ρ) c).arrAt_in 1 rfl _).trans (Reg0.A_eq (Va m ρ) c 1))
    _ = m ((c : Thread nD τ).loc main_arg1) := rfl
theorem Wb_main_arg2 (c : Dev nD) : Wb m ρ c (Proc.devRef .tc main_arg2) = m ((c : Thread nD τ).loc main_arg2) :=
  (Wb_of_ne m ρ c main_arg2 (by decide)).trans rfl

theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := (Wc_arr m ρ c 1).trans (((Reg1.dat (Vb m ρ) c).arrAt_in 1 rfl _).trans (Reg1.A_eq (Vb m ρ) c 1))
    _ = m ((c : Thread nD τ).loc main_arg0) := Wb_main_arg0 m ρ c
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := (Wc_arr m ρ c 0).trans (((Reg1.dat (Vb m ρ) c).arrAt_in 0 rfl _).trans (Reg1.A_eq (Vb m ρ) c 0))
    _ = m ((c : Thread nD τ).loc main_arg1) := Wb_main_arg1 m ρ c
theorem Wc_main_arg2 (c : Dev nD) : Wc m ρ c (Proc.devRef .tc main_arg2) = m ((c : Thread nD τ).loc main_arg2) :=
  (Wc_of_ne m ρ c main_arg2 (by decide)).trans (Wb_main_arg2 m ρ c)

theorem Wd_main_arg0 (c : Dev nD) : Wd m ρ c (Proc.devRef .tc main_arg0) = m ((c : Thread nD τ).loc main_arg0) :=
  (Wd_of m ρ c main_arg0 (by decide)).trans (Wc_main_arg0 m ρ c)
theorem Wd_main_arg1 (c : Dev nD) : Wd m ρ c (Proc.devRef .tc main_arg1) = m ((c : Thread nD τ).loc main_arg1) :=
  (Wd_of m ρ c main_arg1 (by decide)).trans (Wc_main_arg1 m ρ c)
theorem Wd_main_arg2 (c : Dev nD) : Wd m ρ c (Proc.devRef .tc main_arg2) = m ((c : Thread nD τ).loc main_arg2) :=
  (Wd_of m ρ c main_arg2 (by decide)).trans (Wc_main_arg2 m ρ c)

/-- THE FRAME, at any float instance: the program runs to the end without a fault and its arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wd_main_arg0 m ρ c),
      (h c _ (mem_uc main_arg1 (by decide))).trans (Wd_main_arg1 m ρ c),
      (h c _ (mem_uc main_arg2 (by decide))).trans (Wd_main_arg2 m ρ c)⟩) (run_all m ρ)

end Cert.Kernel.Whole

end
-- ==== Proof.KI.Run0.lean ====
/-
  Region 0 of the program (the first pairwise-distance call, rows = first point set, columns = second).
  The grid is 16 x 16; point t has row block t / 16 and column block t % 16.  The output window's block
  depends on the row block only, so its staging buffer is carried across the 16 column blocks of one row
  block: at column block 0 the body stores the block's row minima, at every later column block it stores
  the minimum of what the buffer holds and the new block's row minima.  This module states what the
  output buffer holds after every point (by recursion on the point), shows the body does exactly that in
  each of its two control cases, and assembles the per-point obligation of the pipeline.
  Everything is stated for an arbitrary float instance and for arbitrary contents V of the buffers at the
  region's entry.
-/
import proofs.«103180_j3006477107867_1_alg».proof.Proof.Gen.KernelIdeal.Launch
import proofs.«103180_j3006477107867_1_alg».proof.Proof.Gen.KernelIdeal.Skeleton
import proofs.«103180_j3006477107867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging buffer holds the row block at every point (it is fetched when the row block changes and
    the body leaves it in place). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds the column block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two control cases, decided over the grid -/

/-- The first branch (store the block's minima) is taken exactly at column block 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (fold the block's minima into the buffer) is taken exactly at the other column blocks. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores at every grid point: the output window is never idle. -/
theorem live2 : ∀ i : grid0.Coords, cfg0.idle 2 i = false := by
  intro i
  have h : ∀ x : Fin 16,
      (!(Scalar.cmpi .ne (Scalar.extui (Scalar.cmpi .eq (BitVec.ofNat 32 x.val) 0#32)) 0#32 == 1#1)
        && !(Scalar.cmpi .ne (Scalar.extui (Scalar.cmpi .ne (BitVec.ofNat 32 x.val) 0#32)) 0#32 == 1#1)) = false := by decide
  exact h (i 1)

/-! ## The staging memrefs at a point -/

abbrev VO : View sig .tc .vmem S4x512 .f32 := (Memref.whole cc0_stg2_0 : Memref sig .tc .vmem S4x512 .f32).view
abbrev ms0 (t : Fin cfg0.N) : Memref sig .tc .vmem S4x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x512 .f32 := win0_2.stage (cfg0.slots t 2)
abbrev hs2 (t : Fin cfg0.N) : (ms2 t).IsWhole := hstage0_2 ((cfg0.slots t 2).cast nbuf0_2)

/-! ## The body in each case -/

set_option maxHeartbeats 1000000 in
/-- Column block 0: with the two input buffers at `x0`, `x1` and the output buffer at anything, the body runs to the end,
    leaves the inputs as they were and the output buffer with the listed stores written (the list is found by the run). -/
noncomputable def kernelRunA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__min_sqdist_kernel i arg2 harg2 arg3 harg3 arg4 harg4) K } := by
  refine ⟨?_, fun E K => ?run⟩
  case run =>
    simp only [cc0__min_sqdist_kernel_eq_skeleton]; unfold cc0__min_sqdist_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later column block: the same, with the output buffer at the running contents `xo`, which the body reads. -/
noncomputable def kernelRunB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__min_sqdist_kernel i arg2 harg2 arg3 harg3 arg4 harg4) K } := by
  refine ⟨?_, fun E K => ?run⟩
  case run =>
    simp only [cc0__min_sqdist_kernel_eq_skeleton]; unfold cc0__min_sqdist_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Reg0

end
-- ==== Proof.KI.Body0.lean ====
/-
  Region 0, continued: what the output window's staging buffer holds after every grid point — the block's row minima
  at column block 0, and at a later column block the minimum of the running contents with the new block's row minima —
  the pipeline's proof data built from it, and the per-point obligation: at every point the body takes the buffers the
  pipeline hands it to the buffers the proof data name.
-/
import proofs.«103180_j3006477107867_1_alg».proof.Proof.KI.Run0

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer -/

/-- The one store of column block 0 covers the whole output block. -/
theorem coverA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) (y : S4x512.Idx) :
    ∃ pc ∈ (kernelRunA c i arg2 harg2 arg3 harg3 arg4 harg4 hc1 hc2 x0 x1).1, y ∈ pc.1.set :=
  View.cover_of_tiledL (kernelRunA c i arg2 harg2 arg3 harg3 arg4 harg4 hc1 hc2 x0 x1).1 S4x512.size (by sl_kernel_rfl) y

/-- What column block 0 leaves in the output buffer: its store read back. -/
def outA (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1) (x0 x1 : Vec F S4x512x3 .f32) : Vec F S4x512 .f32 :=
  VO.read (Elt F) (VO.writes (Elt F) VO.junk (kernelRunA c i arg2 harg2 arg3 harg3 arg4 harg4 hc1 hc2 x0 x1).1)

/-- The one store of a later column block covers the whole output block. -/
theorem coverB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) (y : S4x512.Idx) :
    ∃ pc ∈ (kernelRunB c i arg2 harg2 arg3 harg3 arg4 harg4 hc1 hc2 x0 x1 xo).1, y ∈ pc.1.set :=
  View.cover_of_tiledL (kernelRunB c i arg2 harg2 arg3 harg3 arg4 harg4 hc1 hc2 x0 x1 xo).1 S4x512.size (by sl_kernel_rfl) y

/-- What a later column block leaves in the output buffer. -/
def outB (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1) (x0 x1 : Vec F S4x512x3 .f32) (xo : Vec F S4x512 .f32) : Vec F S4x512 .f32 :=
  VO.read (Elt F) (VO.writes (Elt F) VO.junk (kernelRunB c i arg2 harg2 arg3 harg3 arg4 harg4 hc1 hc2 x0 x1 xo).1)

/-! ## The running contents of the output buffer -/

/-- What the output window's staging buffer holds after the body at position `n`: a fresh start at every column block 0,
    and otherwise the fold of the new block into what position `n - 1` left. -/
def accAt (c : Dev nD) : (n : ℕ) → n < cfg0.N → Vec F S4x512 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((hcond1 ⟨0, hn⟩).mpr (Nat.zero_mod _)) (fun h => (hcond2 ⟨0, hn⟩).mp h (Nat.zero_mod _)) (iblk V c 0 ⟨0, hn⟩) (iblk V c 1 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond1 ⟨n + 1, hn⟩).mpr h0) (fun h => (hcond2 ⟨n + 1, hn⟩).mp h h0) (iblk V c 0 ⟨n + 1, hn⟩) (iblk V c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond1 ⟨n + 1, hn⟩).mp h)) ((hcond2 ⟨n + 1, hn⟩).mpr h0) (iblk V c 0 ⟨n + 1, hn⟩) (iblk V c 1 ⟨n + 1, hn⟩)
        (accAt c n (Nat.lt_of_succ_lt hn))

theorem accAt_A (c : Dev nD) (t : Fin cfg0.N) (h0 : t.val % 16 = 0) :
    accAt V c t.val t.isLt = outA c (grid0.coords t) (ms0 t) (hs0 t) (ms1 t) (hs1 t) (ms2 t) (hs2 t)
      ((hcond1 t).mpr h0) (fun h => (hcond2 t).mp h h0) (iblk V c 0 t) (iblk V c 1 t) := by
  obtain ⟨n, hn⟩ := t
  cases n with
  | zero => exact rfl
  | succ n => exact (dif_pos h0).trans rfl

theorem accAt_B (c : Dev nD) (t : Fin cfg0.N) (h0 : ¬ t.val % 16 = 0) :
    accAt V c t.val t.isLt = outB c (grid0.coords t) (ms0 t) (hs0 t) (ms1 t) (hs1 t) (ms2 t) (hs2 t)
      (fun h => h0 ((hcond1 t).mp h)) ((hcond2 t).mpr h0) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running contents; the scoped rest and the generator register pass
    through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- At a later column block the output buffer holds what the body left at the point before: the block index has not moved,
    and the buffer is written back only after column block 15. -/
theorem before_2_B (c : Dev nD) (t : Fin cfg0.N) (h0 : ¬ t.val % 16 = 0) (d) :
    (dat V c).before 2 t d = accAt V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live2 (fun _ _ => rfl)]
  dsimp only [dat]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 800000 in
/-- The body at any point: the inputs' buffers hold their blocks; the column block decides the case; at a later column
    block the output buffer holds the running contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  have hN : t.val < 256 := lt_of_lt_of_eq t.isLt (show cfg0.N = 256 from N_0)
  by_cases h0 : t.val % 16 = 0
  · rw [accAt_A V c t h0]
    unfold outA
    iintro ⟨HΦ, Ho, ⟨%d0, H0⟩, ⟨%d1, H1⟩, ⟨%d2, H2⟩⟩
    iapply ((kernelRunA c (grid0.coords t) _ _ _ _ _ _ ((hcond1 t).mpr h0) (fun h => (hcond2 t).mp h h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [accAt_B V c t h0]
    simp only [before_2_B V c t h0]
    unfold outB
    iintro ⟨HΦ, Ho, ⟨%d0, H0⟩, ⟨%d1, H1⟩, ⟨%d2, H2⟩⟩
    iapply ((kernelRunB c (grid0.coords t) _ _ _ _ _ _ (fun h => h0 ((hcond1 t).mp h)) ((hcond2 t).mpr h0) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The pipeline's body obligation, at every point. -/
theorem body_obligation (c : Dev nD) : BodyObligation (dat (F := F) V c) (defs₀ (F := F)) Variants.none () Set.univ := fun t => by
  rw [bigSep_W0, bigSep_W0, live2 (cfg0.grid.coords t)]
  exact sound_body V c t

end Cert.KernelIdeal.Reg0

end
-- ==== Proof.KI.Run1.lean ====
/-
  Region 1 of the program (the second pairwise-distance call: rows = second point set, columns = first).
  The grid is 16 x 16; point t has row block t / 16 and column block t % 16.  The output window's block
  depends on the row block only, so its staging buffer is carried across the 16 column blocks of one row
  block: at column block 0 the body stores the block's row minima, at every later column block it stores
  the minimum of what the buffer holds and the new block's row minima.  This module states what the
  output buffer holds after every point (by recursion on the point), shows the body does exactly that in
  each of its two control cases, and assembles the per-point obligation of the pipeline.
  Everything is stated for an arbitrary float instance and for arbitrary contents V of the buffers at the
  region's entry.
-/
import proofs.«103180_j3006477107867_1_alg».proof.Proof.Gen.KernelIdeal.Launch
import proofs.«103180_j3006477107867_1_alg».proof.Proof.Gen.KernelIdeal.Skeleton
import proofs.«103180_j3006477107867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's staging buffer holds the row block at every point (it is fetched when the row block changes and
    the body leaves it in place). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds the column block at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two control cases, decided over the grid -/

/-- The first branch (store the block's minima) is taken exactly at column block 0. -/
theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The second branch (fold the block's minima into the buffer) is taken exactly at the other column blocks. -/
theorem hcond2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- One of the two branches stores at every grid point: the output window is never idle. -/
theorem live2 : ∀ i : grid1.Coords, cfg1.idle 2 i = false := by
  intro i
  have h : ∀ x : Fin 16,
      (!(Scalar.cmpi .ne (Scalar.extui (Scalar.cmpi .eq (BitVec.ofNat 32 x.val) 0#32)) 0#32 == 1#1)
        && !(Scalar.cmpi .ne (Scalar.extui (Scalar.cmpi .ne (BitVec.ofNat 32 x.val) 0#32)) 0#32 == 1#1)) = false := by decide
  exact h (i 1)

/-! ## The staging memrefs at a point -/

abbrev VO : View sig .tc .vmem S4x512 .f32 := (Memref.whole cc1_stg2_0 : Memref sig .tc .vmem S4x512 .f32).view
abbrev ms0 (t : Fin cfg1.N) : Memref sig .tc .vmem S4x512x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4x512x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S4x512 .f32 := win1_2.stage (cfg1.slots t 2)
abbrev hs2 (t : Fin cfg1.N) : (ms2 t).IsWhole := hstage1_2 ((cfg1.slots t 2).cast nbuf1_2)

/-! ## The body in each case -/

set_option maxHeartbeats 1000000 in
/-- Column block 0: with the two input buffers at `x0`, `x1` and the output buffer at anything, the body runs to the end,
    leaves the inputs as they were and the output buffer with the listed stores written (the list is found by the run). -/
noncomputable def kernelRunA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__min_sqdist_kernel i arg2 harg2 arg3 harg3 arg4 harg4) K } := by
  refine ⟨?_, fun E K => ?run⟩
  case run =>
    simp only [cc1__min_sqdist_kernel_eq_skeleton]; unfold cc1__min_sqdist_kernel_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later column block: the same, with the output buffer at the running contents `xo`, which the body reads. -/
noncomputable def kernelRunB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) :
    { L : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__min_sqdist_kernel i arg2 harg2 arg3 harg3 arg4 harg4) K } := by
  refine ⟨?_, fun E K => ?run⟩
  case run =>
    simp only [cc1__min_sqdist_kernel_eq_skeleton]; unfold cc1__min_sqdist_kernel_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Reg1

end
-- ==== Proof.KI.Body1.lean ====
/-
  Region 1, continued: what the output window's staging buffer holds after every grid point — the block's row minima
  at column block 0, and at a later column block the minimum of the running contents with the new block's row minima —
  the pipeline's proof data built from it, and the per-point obligation: at every point the body takes the buffers the
  pipeline hands it to the buffers the proof data name.
-/
import proofs.«103180_j3006477107867_1_alg».proof.Proof.KI.Run1

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output buffer -/

/-- The one store of column block 0 covers the whole output block. -/
theorem coverA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) (y : S4x512.Idx) :
    ∃ pc ∈ (kernelRunA c i arg2 harg2 arg3 harg3 arg4 harg4 hc1 hc2 x0 x1).1, y ∈ pc.1.set :=
  View.cover_of_tiledL (kernelRunA c i arg2 harg2 arg3 harg3 arg4 harg4 hc1 hc2 x0 x1).1 S4x512.size (by sl_kernel_rfl) y

/-- What column block 0 leaves in the output buffer: its store read back. -/
def outA (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1) (x0 x1 : Vec F S4x512x3 .f32) : Vec F S4x512 .f32 :=
  VO.read (Elt F) (VO.writes (Elt F) VO.junk (kernelRunA c i arg2 harg2 arg3 harg3 arg4 harg4 hc1 hc2 x0 x1).1)

/-- The one store of a later column block covers the whole output block. -/
theorem coverB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) (y : S4x512.Idx) :
    ∃ pc ∈ (kernelRunB c i arg2 harg2 arg3 harg3 arg4 harg4 hc1 hc2 x0 x1 xo).1, y ∈ pc.1.set :=
  View.cover_of_tiledL (kernelRunB c i arg2 harg2 arg3 harg3 arg4 harg4 hc1 hc2 x0 x1 xo).1 S4x512.size (by sl_kernel_rfl) y

/-- What a later column block leaves in the output buffer. -/
def outB (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1) (x0 x1 : Vec F S4x512x3 .f32) (xo : Vec F S4x512 .f32) : Vec F S4x512 .f32 :=
  VO.read (Elt F) (VO.writes (Elt F) VO.junk (kernelRunB c i arg2 harg2 arg3 harg3 arg4 harg4 hc1 hc2 x0 x1 xo).1)

/-! ## The running contents of the output buffer -/

/-- What the output window's staging buffer holds after the body at position `n`: a fresh start at every column block 0,
    and otherwise the fold of the new block into what position `n - 1` left. -/
def accAt (c : Dev nD) : (n : ℕ) → n < cfg1.N → Vec F S4x512 .f32
  | 0, hn => outA c (grid1.coords ⟨0, hn⟩) (ms0 ⟨0, hn⟩) (hs0 ⟨0, hn⟩) (ms1 ⟨0, hn⟩) (hs1 ⟨0, hn⟩) (ms2 ⟨0, hn⟩) (hs2 ⟨0, hn⟩)
      ((hcond1 ⟨0, hn⟩).mpr (Nat.zero_mod _)) (fun h => (hcond2 ⟨0, hn⟩).mp h (Nat.zero_mod _)) (iblk V c 0 ⟨0, hn⟩) (iblk V c 1 ⟨0, hn⟩)
  | n + 1, hn =>
    if h0 : (n + 1) % 16 = 0 then
      outA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond1 ⟨n + 1, hn⟩).mpr h0) (fun h => (hcond2 ⟨n + 1, hn⟩).mp h h0) (iblk V c 0 ⟨n + 1, hn⟩) (iblk V c 1 ⟨n + 1, hn⟩)
    else
      outB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond1 ⟨n + 1, hn⟩).mp h)) ((hcond2 ⟨n + 1, hn⟩).mpr h0) (iblk V c 0 ⟨n + 1, hn⟩) (iblk V c 1 ⟨n + 1, hn⟩)
        (accAt c n (Nat.lt_of_succ_lt hn))

theorem accAt_A (c : Dev nD) (t : Fin cfg1.N) (h0 : t.val % 16 = 0) :
    accAt V c t.val t.isLt = outA c (grid1.coords t) (ms0 t) (hs0 t) (ms1 t) (hs1 t) (ms2 t) (hs2 t)
      ((hcond1 t).mpr h0) (fun h => (hcond2 t).mp h h0) (iblk V c 0 t) (iblk V c 1 t) := by
  obtain ⟨n, hn⟩ := t
  cases n with
  | zero => exact rfl
  | succ n => exact (dif_pos h0).trans rfl

theorem accAt_B (c : Dev nD) (t : Fin cfg1.N) (h0 : ¬ t.val % 16 = 0) :
    accAt V c t.val t.isLt = outB c (grid1.coords t) (ms0 t) (hs0 t) (ms1 t) (hs1 t) (ms2 t) (hs2 t)
      (fun h => h0 ((hcond1 t).mp h)) ((hcond2 t).mpr h0) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at the running contents; the scoped rest and the generator register pass
    through untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = accAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- At a later column block the output buffer holds what the body left at the point before: the block index has not moved,
    and the buffer is written back only after column block 15. -/
theorem before_2_B (c : Dev nD) (t : Fin cfg1.N) (h0 : ¬ t.val % 16 = 0) (d) :
    (dat V c).before 2 t d = accAt V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    live2 (fun _ _ => rfl)]
  dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 800000 in
/-- The body at any point: the inputs' buffers hold their blocks; the column block decides the case; at a later column
    block the output buffer holds the running contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  have hN : t.val < 256 := lt_of_lt_of_eq t.isLt (show cfg1.N = 256 from N_1)
  by_cases h0 : t.val % 16 = 0
  · rw [accAt_A V c t h0]
    unfold outA
    iintro ⟨HΦ, Ho, ⟨%d0, H0⟩, ⟨%d1, H1⟩, ⟨%d2, H2⟩⟩
    iapply ((kernelRunA c (grid1.coords t) _ _ _ _ _ _ ((hcond1 t).mpr h0) (fun h => (hcond2 t).mp h h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _ _)
  · rw [accAt_B V c t h0]
    simp only [before_2_B V c t h0]
    unfold outB
    iintro ⟨HΦ, Ho, ⟨%d0, H0⟩, ⟨%d1, H1⟩, ⟨%d2, H2⟩⟩
    iapply ((kernelRunB c (grid1.coords t) _ _ _ _ _ _ (fun h => h0 ((hcond1 t).mp h)) ((hcond2 t).mpr h0) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1, live2 (cfg1.grid.coords t)]
  exact sound_body V c t

end Cert.KernelIdeal.Reg1

end
-- ==== Proof.KI.Run.lean ====
/-
  The whole program as a sequence of three segments — the first pairwise-distance call, the second one with the two
  point sets exchanged, and the host operations that weight, average and sum the two arrays of minima — and its run:
  from any launch memory every weakly fair execution terminates without a fault, and in the final memory every
  unscoped buffer holds the contents named here.  The contents at each boundary are a fold from the launch memory:
  a call replaces its output array by what its write-backs leave (the pipeline's proof data read at the last grid
  point) and keeps everything else; the host stretch applies its operations in order.  Both frame claims and the value
  of the result are read off this one run.
-/
import proofs.«103180_j3006477107867_1_alg».proof.Proof.KI.Body0
import proofs.«103180_j3006477107867_1_alg».proof.Proof.KI.Body1

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Wa : Dev nD → Valuation τ sig (Elt F) := fun c b => (s₀ m ρ).mem ((c : Dev nD), b)
/-- The same read at the TensorCore's references (what the first call's proof data take). -/
abbrev Va : (c : Dev nD) → (b : Ref sig .tc) → Buf (Elt F) ((c : Thread nD τ).loc b) := fun c b => Wa m ρ c b

/-- After the first call: its arrays at what the pipeline leaves, every other buffer as entered. -/
def Wb (c : Dev nD) : Valuation τ sig (Elt F) :=
  Pipeline.withArrays spec0 c (Wa m ρ c) fun w => (Reg0.dat (Va m ρ) c).arrAt w cfg0.N
theorem Wb_arr (c : Dev nD) (w : Fin cfg0.W) :
    Wb m ρ c (Proc.devRef .tc (Pipeline.arrRef spec0 w)) = (Reg0.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (Reg0.dat (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the second call. -/
def Wc (c : Dev nD) : Valuation τ sig (Elt F) :=
  Pipeline.withArrays spec1 c (Wb m ρ c) fun w => (Reg1.dat (Vb m ρ) c).arrAt w cfg1.N
theorem Wc_arr (c : Dev nD) (w : Fin cfg1.W) :
    Wc m ρ c (Proc.devRef .tc (Pipeline.arrRef spec1 w)) = (Reg1.dat (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (Reg1.dat (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After the host operations: the end. -/
abbrev Wd : Dev nD → Valuation τ sig (Elt F) := fun c => StableHlo.after hostOps2 (Wc m ρ c)

/-! ## The proof data family and the thread state -/

abbrev admK : (p : Fin 2) → (pcfgs (F := F) p).Adm := fun p => (cfgs p).toPCfg_adm
/-- Every pipeline's proof data, each at its call's entry contents. -/
def pdatsK : (p : Fin 2) → (c : Dev nD) → Dat τ (Elt F) Unit ℕ (UR sig nD τ) ℕ (Pipeline.pin (pcfgs (F := F)) admK p) c
  | ⟨0, _⟩ => fun c => Reg0.dat (Va m ρ) c
  | ⟨1, _⟩ => fun c => Reg1.dat (Vb m ρ) c
abbrev 𝒱K : Variants := Variants.none
abbrev LK : GSem nD τ sig → Finset Unit := fun _ => ∅
abbrev lvK : GSem nD τ sig → Unit → ℕ := fun _ _ => 0
/-- What rides beside the buffers through every segment: the generator register at some state and nothing owed. -/
abbrev RK (c : Dev nD) : sProp 𝕄 := iprop((∃ r, prngReg c r) ∗ ∃ W, owes (c : Thread nD τ) (0 : CellTallies nD τ sig Unit) W)

theorem hostOps2_freshK : (hostOps2 : List (HloOp τ sig (Elt F))).Forall fun op => op.fresh = ∅ := by
  simp only [List.Forall]; repeat' constructor

abbrev hsegK (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_freshK) op h) W RK

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnK (c : Dev nD) : sProp 𝕄 := iprop(StableHlo.held (c : Thread nD τ) (Pipeline.ucRefs τ sig) (Wd m ρ c) ∗ ∃ r, prngReg c r)

/-! ## The calls as segments -/

set_option backward.isDefEq.respectTransparency.types false in
/-- The first call over the thread state: entered from every unscoped buffer at the launch contents, left at `Wb`. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (Reg0.body_obligation (Va m ρ) c).loose
  hwaits := Pipeline.hwaits_of_owed_zero _ _ _ _ LK lvK 0 fun _ _ => rfl
  pre c := iprop(StableHlo.held (c : Thread nD τ) (Pipeline.ucRefs τ sig) (Wa m ρ c) ∗ RK c)
  post c := iprop(StableHlo.held (c : Thread nD τ) (Pipeline.ucRefs τ sig) (Wb m ρ c) ∗ RK c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (Va m ρ c) (Vb m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from `Wb`, left at `Wc`. -/
def reg1 : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (Reg1.body_obligation (Vb m ρ) c).loose
  hwaits := Pipeline.hwaits_of_owed_zero _ _ _ _ LK lvK 1 fun _ _ => rfl
  pre c := iprop(StableHlo.held (c : Thread nD τ) (Pipeline.ucRefs τ sig) (Wb m ρ c) ∗ RK c)
  post c := iprop(StableHlo.held (c : Thread nD τ) (Pipeline.ucRefs τ sig) (Wc m ρ c) ∗ RK c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (Vb m ρ c) (Vc m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsK : List (Pipeline.Seg (pcfgs (F := F)) admK (pdatsK m ρ) () defs₀ 𝒱K LK lvK) :=
  [ .region (reg0 m ρ),
    .region (reg1 m ρ),
    .host (hsegK (Wc m ρ)) ]

theorem main_run (c : Dev nD) : main (F := F) c = Pipeline.Seg.run (segsK m ρ) := (main_chain c).trans (by chain_rfl)

set_option backward.isDefEq.respectTransparency.types false in
/-- THE RUN: from any launch memory with zero counters every weakly fair execution terminates, nothing faulting, and the
    final memory holds, at every unscoped buffer, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) admK (pdatsK m ρ) () cellOf_inj emb₁ defs₀ 𝒱K LK lvK m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ RK c)) (Tₙ := TnK m ρ)
    (hch := ⟨fun _ => .rfl, fun _ => .rfl, fun _ => .rfl, fun c => by
      show (iprop(StableHlo.held (c : Thread nD τ) (Pipeline.ucRefs τ sig) (Wd m ρ c) ∗ RK c) : sProp 𝕄)
        ⊢ iprop(TnK m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LK lvK fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h => h)

/-! ## The arguments end as launched -/

theorem Wd_of_unwritten (c : Dev nD) (b : Ref sig .tc)
    (hb : (hostOps2 : List (HloOp τ sig (Elt F))).Forall fun op => Proc.devRef .tc b ∉ op.writes) :
    Wd m ρ c (Proc.devRef .tc b) = Wc m ρ c (Proc.devRef .tc b) :=
  StableHlo.after_of_forall_not_mem (b := Proc.devRef .tc b) _ _ (List.forall_iff_forall_mem.mp hb)

end Cert.KernelIdeal.Whole

end
-- ==== Proof.KI.Args.lean ====
/-
  The three argument arrays end as launched: neither call writes them (each reads them through input windows, whose
  arrays the pipeline leaves as it found them) and no host operation writes them; so the fold of boundary contents, read
  at an argument, walks back to the launch memory.  With the whole-program run this is the frame claim, at any float
  instance.
-/
import proofs.«103180_j3006477107867_1_alg».proof.Proof.KI.Run
import proofs.«103180_j3006477107867_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host operation writes is, at the end, what it was after the second call. -/
theorem Wd_of (c : Dev nD) (r : Ref sig .tc) (h : r ∉ hostOps2_W) :
    Wd m ρ c (Proc.devRef .tc r) = Wc m ρ c (Proc.devRef .tc r) :=
  StableHlo.after_of_writes_sub hostOps2 _ hostOps2_writes h

theorem Wb_main_arg0 (c : Dev nD) : Wb m ρ c (Proc.devRef .tc main_arg0) = m ((c : Thread nD τ).loc main_arg0) :=
  calc Wb m ρ c (Proc.devRef .tc main_arg0)
    _ = Wa m ρ c (Proc.devRef .tc main_arg0) := (Wb_arr m ρ c 0).trans (((Reg0.dat (Va m ρ) c).arrAt_in 0 rfl _).trans (Reg0.A_eq (Va m ρ) c 0))
    _ = m ((c : Thread nD τ).loc main_arg0) := rfl
theorem Wb_main_arg1 (c : Dev nD) : Wb m ρ c (Proc.devRef .tc main_arg1) = m ((c : Thread nD τ).loc main_arg1) :=
  calc Wb m ρ c (Proc.devRef .tc main_arg1)
    _ = Wa m ρ c (Proc.devRef .tc main_arg1) := (Wb_arr m ρ c 1).trans (((Reg0.dat (Va m ρ) c).arrAt_in 1 rfl _).trans (Reg0.A_eq (Va m ρ) c 1))
    _ = m ((c : Thread nD τ).loc main_arg1) := rfl
theorem Wb_main_arg2 (c : Dev nD) : Wb m ρ c (Proc.devRef .tc main_arg2) = m ((c : Thread nD τ).loc main_arg2) :=
  (Wb_of_ne m ρ c main_arg2 (by decide)).trans rfl

theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := (Wc_arr m ρ c 1).trans (((Reg1.dat (Vb m ρ) c).arrAt_in 1 rfl _).trans (Reg1.A_eq (Vb m ρ) c 1))
    _ = m ((c : Thread nD τ).loc main_arg0) := Wb_main_arg0 m ρ c
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := (Wc_arr m ρ c 0).trans (((Reg1.dat (Vb m ρ) c).arrAt_in 0 rfl _).trans (Reg1.A_eq (Vb m ρ) c 0))
    _ = m ((c : Thread nD τ).loc main_arg1) := Wb_main_arg1 m ρ c
theorem Wc_main_arg2 (c : Dev nD) : Wc m ρ c (Proc.devRef .tc main_arg2) = m ((c : Thread nD τ).loc main_arg2) :=
  (Wc_of_ne m ρ c main_arg2 (by decide)).trans (Wb_main_arg2 m ρ c)

theorem Wd_main_arg0 (c : Dev nD) : Wd m ρ c (Proc.devRef .tc main_arg0) = m ((c : Thread nD τ).loc main_arg0) :=
  (Wd_of m ρ c main_arg0 (by decide)).trans (Wc_main_arg0 m ρ c)
theorem Wd_main_arg1 (c : Dev nD) : Wd m ρ c (Proc.devRef .tc main_arg1) = m ((c : Thread nD τ).loc main_arg1) :=
  (Wd_of m ρ c main_arg1 (by decide)).trans (Wc_main_arg1 m ρ c)
theorem Wd_main_arg2 (c : Dev nD) : Wd m ρ c (Proc.devRef .tc main_arg2) = m ((c : Thread nD τ).loc main_arg2) :=
  (Wd_of m ρ c main_arg2 (by decide)).trans (Wc_main_arg2 m ρ c)

/-- THE FRAME, at any float instance: the program runs to the end without a fault and its arguments end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wd_main_arg0 m ρ c),
      (h c _ (mem_uc main_arg1 (by decide))).trans (Wd_main_arg1 m ρ c),
      (h c _ (mem_uc main_arg2 (by decide))).trans (Wd_main_arg2 m ρ c)⟩) (run_all m ρ)

end Cert.KernelIdeal.Whole

end
-- ==== Proof.KI.Out0.lean ====
/-
  Region 0, the values: the store of column block 0 leaves the block's row minima in the output buffer, the store of a
  later column block leaves the minimum of the running contents and the block's row minima; so the running contents
  after each point are an explicit chain of the two payloads.
-/
import proofs.«103180_j3006477107867_1_alg».proof.Proof.KI.Body0
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Column block 0 leaves the row minima of the block of squared distances. -/
theorem outA_eq (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc1 : k0_cond1 i = 1#1) (hc2 : ¬ k0_cond2 i = 1#1) (x0 x1 : Vec F S4x512x3 .f32) :
    outA c i a2 h2 a3 h3 a4 h4 hc1 hc2 x0 x1 = k0_pay2 x0 x1 := by
  unfold outA
  rw [View.read_writes_eq_canon _ _ _ (coverA c i a2 h2 a3 h3 a4 h4 hc1 hc2 x0 x1)]
  unfold kernelRunA
  dsimp only
  sl_unfold_words
  rw [View.canon_unit_zero hz2]
  simp only [View.readAt_eq_ld, h2.read_unread, h3.read_unread, View.ld_unit_zero (S := S4x512x3) hz3]

/-- A later column block leaves the minimum of the running contents and the block's row minima. -/
theorem outB_eq (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc1 : ¬ k0_cond1 i = 1#1) (hc2 : k0_cond2 i = 1#1) (x0 x1 : Vec F S4x512x3 .f32) (xo : Vec F S4x512 .f32) :
    outB c i a2 h2 a3 h3 a4 h4 hc1 hc2 x0 x1 xo = k0_pay1 (k0_pay2 x0 x1) xo := by
  unfold outB
  rw [View.read_writes_eq_canon _ _ _ (coverB c i a2 h2 a3 h3 a4 h4 hc1 hc2 x0 x1 xo)]
  unfold kernelRunB
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

end Cert.KernelIdeal.Reg0

end
-- ==== Proof.Spec.lean ====
/-
  The specification of the Chamfer loss on the extended reals, importing no program.
  For two arrays of 3-dimensional points x, y : [4, 8192, 3] the squared distance between point n of x and point m of y
  in batch b is written in the expanded form  |x_n|^2 + |y_m|^2 - 2 <x_n, y_m>, each norm and the inner product a sum over
  the three coordinates.  The loss takes, for every point of x, the minimum over all points of y (dxy) and, for every
  point of y, the minimum over all points of x (dyx), multiplies each row by the batch weight, averages over the 8192
  points, adds the two averages and averages over the 4 batches.
  The law that joins a tiled computation to the whole one is that a minimum over 8192 indices is the minimum over the
  16 blocks of the minimum over each block's 512 indices.
-/
import Idealize.ShloMosaic.PureOps.Ideal
import Idealize.ShloMosaic.Lib.ValueIdx

noncomputable section

open scoped BigOperators

namespace Cert.Chamfer

open Idealize.ShloMosaic Idealize.ShloMosaic.ValueIdx

abbrev Pts : Shape := ⟨3, ![4, 8192, 3]⟩
abbrev Mins : Shape := ⟨2, ![4, 8192]⟩

/-- The factor of the inner product: the float word of 2.0, never evaluated. -/
abbrev two : Ideal .f32 := Ideal.ofBits .f32 0x40000000#32

/-- The squared norm of point `n` of batch `b`. -/
def sq (x : FVec Ideal Pts .f32) (b : Fin 4) (n : Fin 8192) : Ideal .f32 := ∑ k : Fin 3, x (ix3 b n k) * x (ix3 b n k)

/-- The inner product of point `n` of `x` with point `m` of `y`. -/
def dot (x y : FVec Ideal Pts .f32) (b : Fin 4) (n m : Fin 8192) : Ideal .f32 := ∑ k : Fin 3, x (ix3 b n k) * y (ix3 b m k)

/-- The squared distance, expanded. -/
def dist (x y : FVec Ideal Pts .f32) (b : Fin 4) (n m : Fin 8192) : Ideal .f32 :=
  (sq x b n + sq y b m) - two * dot x y b n m

/-- For every point of `x`, the least squared distance to a point of `y`. -/
def dxy (x y : FVec Ideal Pts .f32) : FVec Ideal Mins .f32 :=
  fun i => Finset.univ.inf fun m : Fin 8192 => dist x y (i 0) (i 1) m

/-- For every point of `y`, the least squared distance to a point of `x`. -/
def dyx (x y : FVec Ideal Pts .f32) : FVec Ideal Mins .f32 :=
  fun i => Finset.univ.inf fun n : Fin 8192 => dist x y (i 0) n (i 1)

/-- Index `512 p + r` of an axis of extent 8192 cut into 16 blocks of 512. -/
def at512 (p : Fin 16) (r : Fin 512) : Fin 8192 := ⟨512 * p.val + r.val, by omega⟩

/-- A minimum over 8192 indices is the minimum, over the 16 blocks, of each block's minimum. -/
theorem inf_blocks (f : Fin 8192 → EReal) :
    (Finset.univ.inf fun q : Fin 16 => Finset.univ.inf fun j : Fin 512 => f (at512 q j)) = Finset.univ.inf f := by
  apply le_antisymm
  · refine Finset.le_inf fun m _ => ?_
    have hq : m.val / 512 < 16 := by have := m.isLt; omega
    have hj : m.val % 512 < 512 := Nat.mod_lt _ (by norm_num)
    have hm : at512 ⟨m.val / 512, hq⟩ ⟨m.val % 512, hj⟩ = m := Fin.ext (by simp only [at512]; omega)
    calc (Finset.univ.inf fun q : Fin 16 => Finset.univ.inf fun j : Fin 512 => f (at512 q j))
        ≤ Finset.univ.inf fun j : Fin 512 => f (at512 ⟨m.val / 512, hq⟩ j) := Finset.inf_le (Finset.mem_univ _)
      _ ≤ f (at512 ⟨m.val / 512, hq⟩ ⟨m.val % 512, hj⟩) := Finset.inf_le (Finset.mem_univ _)
      _ = f m := by rw [hm]
  · exact Finset.le_inf fun q _ => Finset.le_inf fun j _ => Finset.inf_le (Finset.mem_univ _)

/-- The blocks up to and including block `k`. -/
def upto (k : ℕ) : Finset (Fin 16) := Finset.univ.filter fun q => q.val ≤ k

theorem upto_zero : upto 0 = {(0 : Fin 16)} := by decide
theorem upto_succ (k : ℕ) (hk : k + 1 < 16) : upto (k + 1) = insert (⟨k + 1, hk⟩ : Fin 16) (upto k) := by
  ext q; simp only [upto, Finset.mem_filter, Finset.mem_univ, true_and, Finset.mem_insert, Fin.ext_iff]; omega
theorem upto_last : upto 15 = Finset.univ := by decide

end Cert.Chamfer

end
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.LibLayout3Col.lean ====
/-
  Rank-3 arrays whose last axis is a unit column, and reductions along the last axis, read at an index written by its
  coordinates, for any extents.

  A row quantity kept as a column ([a, b] viewed as [a, b, 1]) and spread along a new last axis ([a, b, 1] to [a, b, c])
  reads the same entry at every position of that axis; one lane of the last axis cut out as a column ([a, b, d] to
  [a, b, 1] at offset o) reads lane o; a column viewed as a matrix again ([a, b, 1] to [a, b]) reads its only lane.
  Row-major positions agree because the unit axis contributes a factor 1 and a coordinate 0.
  On the extended reals a sum along the last axis started at the zero word is the sum over that axis's coordinates, and
  a minimum along the last axis started at the word of plus infinity is the infimum over them.
-/
import Idealize.ShloMosaic.Lib.Pipeline.Value
import Idealize.ShloMosaic.Lib.ValueIdx
import Idealize.ShloMosaic.PureOps.Ideal.Laws

namespace Layout3Col

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) := by
  refine shapeCast_apply x h (ix3 i j u) (ix2 i j) ?_
  have hu : u.val = 0 := by omega
  rw [Shape.rowMajor_val_two, Shape.rowMajor_val_three]
  show i.val * b + j.val = (i.val * b + j.val) * 1 + u.val
  rw [hu, Nat.mul_one, Nat.add_zero]

/-- An `[a, b, 1]` array cast to `[a, b]` reads, at `(i, j)`, the operand's only lane at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) := by
  refine shapeCast_apply x h (ix2 i j) (ix3 i j (0 : Fin 1)) ?_
  rw [Shape.rowMajor_val_two, Shape.rowMajor_val_three]
  show (i.val * b + j.val) * 1 + 0 = i.val * b + j.val
  rw [Nat.mul_one, Nat.add_zero]

/-- An `[a, b, 1]` array broadcast to `[a, b, c]` reads, at `(i, j, k)`, the operand's only lane at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A unit-width slice of the last axis at offset `o` (offset zero on the other axes) reads, at `(i, j, u)`, lane `o`. -/
theorem slice_lane_apply {a b d : ℕ} (x : (⟨3, ![a, b, d]⟩ : Shape).Idx → α) (off : Fin 3 → ℕ)
    (h : (⟨3, ![a, b, d]⟩ : Shape).Slices off ⟨3, ![a, b, 1]⟩) (h0 : off 0 = 0) (h1 : off 1 = 0) (o : Fin d) (h2 : off 2 = o.val)
    (i : Fin a) (j : Fin b) (u : Fin 1) :
    extractStridedSlice ⟨3, ![a, b, 1]⟩ off x h (ix3 i j u) = x (ix3 i j o) := by
  refine extractStridedSlice_apply off x h (ix3 i j u) (ix3 i j o) fun ax => ?_
  match ax with
  | ⟨0, _⟩ => show i.val = off 0 + i.val; rw [h0, Nat.zero_add]
  | ⟨1, _⟩ => show j.val = off 1 + j.val; rw [h1, Nat.zero_add]
  | ⟨2, _⟩ => show o.val = off 2 + u.val; have := u.isLt; omega

/-- The index of an `[a, b, c]` array over `(i, j)` of the reduced `[a, b]` with lane `k` put back is `(i, j, k)`. -/
theorem lift_lane {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of the
    entries `(i, j, k)`. -/
theorem laneSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_lane h i j k)

/-- A fold of the minimum from plus infinity over a finite set is the infimum over it. -/
theorem fold_minimumf_eq_inf {ι : Type} [DecidableEq ι] (s : Finset ι) (f : ι → EReal) :
    s.fold (FloatOps.minimumf (F := Ideal) (φ := .f32)) (⊤ : EReal) f = s.inf f := by
  induction s using Finset.induction_on with
  | empty => rw [Finset.fold_empty, Finset.inf_empty]
  | insert a s ha ih =>
    rw [Finset.fold_insert ha, Finset.inf_insert, ih]
    show min (f a) (s.inf f) = f a ⊓ s.inf f
    rfl

/-- On the extended reals the minimum of an `[a, b, c]` array along its last axis, started at plus infinity, is, at
    `(i, j)`, the infimum over `k` of the entries `(i, j, k)`. -/
theorem laneMin_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x7F800000#32 : BitVec 32) = 0x7F800000#32) (i : Fin a) (j : Fin b) :
    multiReduction (F := Ideal) .minimumf [2] ⟨2, ![a, b]⟩ src 0x7F800000#32 h hφ hacc (ix2 i j)
      = Finset.univ.inf fun k : Fin c => src (ix3 i j k) := by
  refine (multiReduction_minimumf_eq_fold src 0x7F800000#32 h hφ hacc (ix2 i j)).trans ?_
  refine (h.fold_filter_drop_single _ _ src (ix2 i j)).trans ?_
  have htop : (FloatOps.ofBits (F := Ideal) .f32 0x7F800000#32 : EReal) = ⊤ := by simp [Ideal.ofBits, Ideal.ieee]
  rw [htop]
  refine (fold_minimumf_eq_inf _ _).trans ?_
  exact Finset.inf_congr rfl fun k _ => congrArg src (lift_lane h i j k)

end Layout3Col
-- ==== Proof.KI.Pay.lean ====
/-
  The body's two payloads on the extended reals, read at an index.
  With row block x0 and column block x1 (each [4, 512, 3]), entry (b, r) of the first payload is the minimum over the
  512 columns j of the block of squared distances in the body's own arrangement:
     (|x0_r|² + |x1_j|²) − 2·((x0_r0·x1_j0 + x0_r1·x1_j1) + x0_r2·x1_j2),
  the norms sums over the three coordinates, the inner product accumulated coordinate by coordinate from the left.
  The second payload is the entrywise minimum of the carried block with the first.
-/
import proofs.«103180_j3006477107867_1_alg».proof.Proof.Gen.KernelIdeal.Skeleton
import proofs.«103180_j3006477107867_1_alg».proof.Proof.Spec
import proofs.«103180_j3006477107867_1_alg».proof.Proof.LibLayout3
import proofs.«103180_j3006477107867_1_alg».proof.Proof.LibLayout3Col
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.Chamfer

/-- The body's arrangement of the squared distance between row `r` of block `x0` and row `j` of block `x1`. -/
def blockDist (x0 x1 : Vec Ideal S4x512x3 .f32) (b : Fin 4) (r j : Fin 512) : Ideal .f32 :=
  ((∑ k : Fin 3, x0 (ix3 b r k) * x0 (ix3 b r k)) + (∑ k : Fin 3, x1 (ix3 b j k) * x1 (ix3 b j k)))
    - two * ((x0 (ix3 b r (0 : Fin 3)) * x1 (ix3 b j (0 : Fin 3)) + x0 (ix3 b r (1 : Fin 3)) * x1 (ix3 b j (1 : Fin 3)))
        + x0 (ix3 b r (2 : Fin 3)) * x1 (ix3 b j (2 : Fin 3)))

/-- The first payload of the first call. -/
theorem pay2_apply (x0 x1 : Vec Ideal S4x512x3 .f32) (b : Fin 4) (r : Fin 512) :
    k0_pay2 (F := Ideal) x0 x1 (ix2 b r) = Finset.univ.inf fun j : Fin 512 => blockDist x0 x1 b r j := by
  unfold k0_pay2
  refine (Layout3Col.laneMin_apply _ _ _ _ b r).trans ?_
  refine Finset.inf_congr rfl fun j _ => ?_
  simp only [subf_apply, addf_apply, mulf_apply, broadcast_apply]
  rw [Layout3Col.broadcastTo_ab1_abc_apply, Layout3Col.broadcastTo_ab1_abc_apply, Layout3Col.broadcastTo_ab1_abc_apply, Layout3Col.broadcastTo_ab1_abc_apply]
  rw [Layout3.broadcastTo_a1c_abc_apply, Layout3.broadcastTo_a1c_abc_apply, Layout3.broadcastTo_a1c_abc_apply, Layout3.broadcastTo_a1c_abc_apply]
  rw [Layout3.shapeCast_ab_a1b_apply, Layout3.shapeCast_ab_a1b_apply, Layout3.shapeCast_ab_a1b_apply, Layout3.shapeCast_ab_a1b_apply]
  rw [Layout3Col.shapeCast_ab_ab1_apply]
  rw [Layout3Col.shapeCast_ab1_ab_apply, Layout3Col.shapeCast_ab1_ab_apply, Layout3Col.shapeCast_ab1_ab_apply]
  rw [Layout3Col.slice_lane_apply x0 ![0, 0, 0] slices_S4x512x3_o0_0_0_S4x512x1 rfl rfl (0 : Fin 3) rfl,
    Layout3Col.slice_lane_apply x1 ![0, 0, 0] slices_S4x512x3_o0_0_0_S4x512x1 rfl rfl (0 : Fin 3) rfl,
    Layout3Col.slice_lane_apply x0 ![0, 0, 1] slices_S4x512x3_o0_0_1_S4x512x1 rfl rfl (1 : Fin 3) rfl,
    Layout3Col.slice_lane_apply x1 ![0, 0, 1] slices_S4x512x3_o0_0_1_S4x512x1 rfl rfl (1 : Fin 3) rfl,
    Layout3Col.slice_lane_apply x0 ![0, 0, 2] slices_S4x512x3_o0_0_2_S4x512x1 rfl rfl (2 : Fin 3) rfl,
    Layout3Col.slice_lane_apply x1 ![0, 0, 2] slices_S4x512x3_o0_0_2_S4x512x1 rfl rfl (2 : Fin 3) rfl]
  rw [Layout3Col.laneSum_apply, Layout3Col.laneSum_apply]
  rfl

/-- The second payload: the entrywise minimum of the carried block `v44` with the new block minima `v37`. -/
theorem pay1_apply (v37 : FVec Ideal S4x512 .f32) (v44 : Vec Ideal S4x512 .f32) (i : S4x512.Idx) :
    k0_pay1 (F := Ideal) v37 v44 i = min (v44 i) (v37 i) := by
  unfold k0_pay1
  rw [shapeCast_self]
  rfl

/-- The same two readings for the second call's body (the same text under its own names). -/
theorem pay2_apply1 (x0 x1 : Vec Ideal S4x512x3 .f32) (b : Fin 4) (r : Fin 512) :
    k1_pay2 (F := Ideal) x0 x1 (ix2 b r) = Finset.univ.inf fun j : Fin 512 => blockDist x0 x1 b r j := by
  unfold k1_pay2
  refine (Layout3Col.laneMin_apply _ _ _ _ b r).trans ?_
  refine Finset.inf_congr rfl fun j _ => ?_
  simp only [subf_apply, addf_apply, mulf_apply, broadcast_apply]
  rw [Layout3Col.broadcastTo_ab1_abc_apply, Layout3Col.broadcastTo_ab1_abc_apply, Layout3Col.broadcastTo_ab1_abc_apply, Layout3Col.broadcastTo_ab1_abc_apply]
  rw [Layout3.broadcastTo_a1c_abc_apply, Layout3.broadcastTo_a1c_abc_apply, Layout3.broadcastTo_a1c_abc_apply, Layout3.broadcastTo_a1c_abc_apply]
  rw [Layout3.shapeCast_ab_a1b_apply, Layout3.shapeCast_ab_a1b_apply, Layout3.shapeCast_ab_a1b_apply, Layout3.shapeCast_ab_a1b_apply]
  rw [Layout3Col.shapeCast_ab_ab1_apply]
  rw [Layout3Col.shapeCast_ab1_ab_apply, Layout3Col.shapeCast_ab1_ab_apply, Layout3Col.shapeCast_ab1_ab_apply]
  rw [Layout3Col.slice_lane_apply x0 ![0, 0, 0] slices_S4x512x3_o0_0_0_S4x512x1 rfl rfl (0 : Fin 3) rfl,
    Layout3Col.slice_lane_apply x1 ![0, 0, 0] slices_S4x512x3_o0_0_0_S4x512x1 rfl rfl (0 : Fin 3) rfl,
    Layout3Col.slice_lane_apply x0 ![0, 0, 1] slices_S4x512x3_o0_0_1_S4x512x1 rfl rfl (1 : Fin 3) rfl,
    Layout3Col.slice_lane_apply x1 ![0, 0, 1] slices_S4x512x3_o0_0_1_S4x512x1 rfl rfl (1 : Fin 3) rfl,
    Layout3Col.slice_lane_apply x0 ![0, 0, 2] slices_S4x512x3_o0_0_2_S4x512x1 rfl rfl (2 : Fin 3) rfl,
    Layout3Col.slice_lane_apply x1 ![0, 0, 2] slices_S4x512x3_o0_0_2_S4x512x1 rfl rfl (2 : Fin 3) rfl]
  rw [Layout3Col.laneSum_apply, Layout3Col.laneSum_apply]
  rfl

/-- The second payload: the entrywise minimum of the carried block `v44` with the new block minima `v37`. -/
theorem pay1_apply1 (v37 : FVec Ideal S4x512 .f32) (v44 : Vec Ideal S4x512 .f32) (i : S4x512.Idx) :
    k1_pay1 (F := Ideal) v37 v44 i = min (v44 i) (v37 i) := by
  unfold k1_pay1
  rw [shapeCast_self]
  rfl

end Cert.KernelIdeal.Pay

end
-- ==== Proof.KI.Val0.lean ====
/-
  Region 0, the result array on the extended reals.  With R the array the row window reads and C the array the column
  window reads, the block of point t = 16 p + q pairs rows 512 p .. 512 p + 511 of R with rows 512 q .. 512 q + 511 of C.
  After point 16 p + k the output buffer holds, at (b, r), the minimum over the column blocks 0..k and their 512 columns of
  the squared distance between row 512 p + r of R and that column of C (induction on k: block 0 stores its minima, a later
  block folds its minima in).  The buffer is written back after column block 15, when that minimum ranges over all 8192
  columns, and the 16 write-backs (one per row block) cover the result array: it ends as the array of row minima.
-/
import proofs.«103180_j3006477107867_1_alg».proof.Proof.KI.Out0
import proofs.«103180_j3006477107867_1_alg».proof.Proof.KI.Pay
import proofs.«103180_j3006477107867_1_alg».proof.Proof.Spec

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer

variable (V : (c : Dev nD) → (b : Ref sig .tc) → Buf (Elt Ideal) ((c : Thread nD τ).loc b))

/-- The array the row window reads, and the array the column window reads. -/
abbrev rows (c : Dev nD) : FVec Ideal Pts .f32 := V c main_arg0
abbrev cols (c : Dev nD) : FVec Ideal Pts .f32 := V c main_arg1

/-- The printed index maps over the grid: the row window and the output follow the row block `t / 16`, the column window
    the column block `t % 16`; every other block coordinate is 0. -/
theorem idxs : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

def rowBlk (t : Fin cfg0.N) : Fin 16 := ⟨t.val / 16, by have := t.isLt; have h : cfg0.N = 256 := N_0; omega⟩
def colBlk (t : Fin cfg0.N) : Fin 16 := ⟨t.val % 16, Nat.mod_lt _ (by norm_num)⟩

/-- The row window's block at point `t` is rows `512 (t / 16) + r` of its array. -/
theorem iblk0_apply (c : Dev nD) (t : Fin cfg0.N) (b : Fin 4) (r : Fin 512) (k : Fin 3) :
    iblk V c 0 t (ix3 b r k) = rows V c (ix3 b (at512 (rowBlk t) r) k) := by
  obtain ⟨h0, h1, h2, -⟩ := idxs t
  show V c main_arg0 (((cfg0.win 0).blk t).view.emb (ix3 b r k)) = V c main_arg0 (ix3 b (at512 (rowBlk t) r) k)
  refine congrArg _ (funext fun a => Fin.ext ?_)
  match a with
  | ⟨0, _⟩ => show win0_0.index t (0 : Fin 3) * 4 + 1 * b.val = b.val; rw [h0]; omega
  | ⟨1, _⟩ => show win0_0.index t (1 : Fin 3) * 512 + 1 * r.val = 512 * (t.val / 16) + r.val; rw [h1]; omega
  | ⟨2, _⟩ => show win0_0.index t (2 : Fin 3) * 3 + 1 * k.val = k.val; rw [h2]; omega

/-- The column window's block at point `t` is rows `512 (t % 16) + j` of its array. -/
theorem iblk1_apply (c : Dev nD) (t : Fin cfg0.N) (b : Fin 4) (j : Fin 512) (k : Fin 3) :
    iblk V c 1 t (ix3 b j k) = cols V c (ix3 b (at512 (colBlk t) j) k) := by
  obtain ⟨-, -, -, h0, h1, h2, -⟩ := idxs t
  show V c main_arg1 (((cfg0.win 1).blk t).view.emb (ix3 b j k)) = V c main_arg1 (ix3 b (at512 (colBlk t) j) k)
  refine congrArg _ (funext fun a => Fin.ext ?_)
  match a with
  | ⟨0, _⟩ => show win0_1.index t (0 : Fin 3) * 4 + 1 * b.val = b.val; rw [h0]; omega
  | ⟨1, _⟩ => show win0_1.index t (1 : Fin 3) * 512 + 1 * j.val = 512 * (t.val % 16) + j.val; rw [h1]; omega
  | ⟨2, _⟩ => show win0_1.index t (2 : Fin 3) * 3 + 1 * k.val = k.val; rw [h2]; omega

/-- The body's arrangement of the squared distance, on the point's blocks, is the specification's squared distance between
    the corresponding rows of the two arrays: the inner product accumulated from the left is the sum over the three
    coordinates. -/
theorem blockDist_at (c : Dev nD) (t : Fin cfg0.N) (b : Fin 4) (r j : Fin 512) :
    Pay.blockDist (iblk V c 0 t) (iblk V c 1 t) b r j
      = Chamfer.dist (rows V c) (cols V c) b (at512 (rowBlk t) r) (at512 (colBlk t) j) := by
  unfold Pay.blockDist Chamfer.dist Chamfer.sq Chamfer.dot
  simp only [iblk0_apply, iblk1_apply, Fin.sum_univ_three]

/-- The least squared distance from row `n` of the row array to the rows of column block `q`. -/
def rowMin (c : Dev nD) (b : Fin 4) (n : Fin 8192) (q : Fin 16) : EReal :=
  Finset.univ.inf fun j : Fin 512 => Chamfer.dist (rows V c) (cols V c) b n (at512 q j)

/-- The block minima the body computes at point `t`. -/
theorem pay_at (c : Dev nD) (t : Fin cfg0.N) (b : Fin 4) (r : Fin 512) :
    k0_pay2 (F := Ideal) (iblk V c 0 t) (iblk V c 1 t) (ix2 b r) = rowMin V c b (at512 (rowBlk t) r) (colBlk t) :=
  (Pay.pay2_apply _ _ b r).trans (Finset.inf_congr rfl fun j _ => blockDist_at V c t b r j)

theorem accAt_congr (c : Dev nD) {n n' : ℕ} (e : n = n') (h : n < cfg0.N) (h' : n' < cfg0.N) :
    accAt V c n h = accAt V c n' h' := by subst e; rfl

/-- THE RUNNING MINIMUM: after point `16 p + k` the output buffer holds the minimum over column blocks `0..k`. -/
theorem accAt_inv (c : Dev nD) (p : ℕ) (hp : p < 16) : ∀ (k : ℕ) (hk : k < 16) (h : 16 * p + k < cfg0.N) (b : Fin 4) (r : Fin 512),
    accAt V c (16 * p + k) h (ix2 b r) = (upto k).inf fun q => rowMin V c b (at512 ⟨p, hp⟩ r) q
  | 0, hk, h, b, r => by
    have h0 : (⟨16 * p + 0, h⟩ : Fin cfg0.N).val % 16 = 0 := by show (16 * p + 0) % 16 = 0; omega
    have e1 : rowBlk ⟨16 * p + 0, h⟩ = ⟨p, hp⟩ := Fin.ext (by show (16 * p + 0) / 16 = p; omega)
    have e2 : colBlk ⟨16 * p + 0, h⟩ = (0 : Fin 16) := Fin.ext (by show (16 * p + 0) % 16 = 0; omega)
    rw [accAt_A V c ⟨16 * p + 0, h⟩ h0, outA_eq, pay_at, upto_zero, Finset.inf_singleton, e1, e2]
  | k + 1, hk, h, b, r => by
    have h0 : ¬ (⟨16 * p + (k + 1), h⟩ : Fin cfg0.N).val % 16 = 0 := by show ¬ (16 * p + (k + 1)) % 16 = 0; omega
    have e1 : rowBlk ⟨16 * p + (k + 1), h⟩ = ⟨p, hp⟩ := Fin.ext (by show (16 * p + (k + 1)) / 16 = p; omega)
    have e2 : colBlk ⟨16 * p + (k + 1), h⟩ = (⟨k + 1, hk⟩ : Fin 16) := Fin.ext (by show (16 * p + (k + 1)) % 16 = k + 1; omega)
    have hk' : 16 * p + k < cfg0.N := by omega
    rw [accAt_B V c ⟨16 * p + (k + 1), h⟩ h0, outB_eq, Pay.pay1_apply, pay_at, e1, e2,
      accAt_congr V c (show (⟨16 * p + (k + 1), h⟩ : Fin cfg0.N).val - 1 = 16 * p + k from by show 16 * p + (k + 1) - 1 = 16 * p + k; omega) _ hk',
      accAt_inv c p hp k (by omega) hk' b r, upto_succ k hk, Finset.inf_insert]
    exact min_comm _ _

/-- WHAT A WRITE-BACK WRITES: after column block 15 the buffer holds the row minima over all 8192 columns. -/
theorem flushed_eq (c : Dev nD) (t : Fin cfg0.N) (hf : (cfg0.win 2).flush t = true) :
    (dat V c).flushed 2 t = ((cfg0.win 2).blk t).view.read (Elt Ideal) (dxy (rows V c) (cols V c)) := by
  have h15 : t.val % 16 = 15 := (flush0_2 t).mp hf
  obtain ⟨-, -, -, -, -, -, g0, g1⟩ := idxs t
  show (cfg0.win 2).cut (grid0.coords t) ((dat V c).after 2 t) = _
  rw [after_2]
  funext y
  obtain ⟨b, r, rfl⟩ : ∃ (b : Fin 4) (r : Fin 512), y = ix2 b r := ⟨y 0, y 1, eq_ix2 y⟩
  show accAt V c t.val t.isLt (ix2 b r) = dxy (rows V c) (cols V c) (((cfg0.win 2).blk t).view.emb (ix2 b r))
  have hemb : ((cfg0.win 2).blk t).view.emb (ix2 b r) = ix2 b (at512 (rowBlk t) r) := by
    funext a; apply Fin.ext
    match a with
    | ⟨0, _⟩ => show win0_2.index t (0 : Fin 2) * 4 + 1 * b.val = b.val; rw [g0]; omega
    | ⟨1, _⟩ => show win0_2.index t (1 : Fin 2) * 512 + 1 * r.val = 512 * (t.val / 16) + r.val; rw [g1]; omega
  rw [hemb]
  have hN : cfg0.N = 256 := N_0
  have hlt := t.isLt
  have ht : t.val = 16 * (t.val / 16) + 15 := by omega
  have hp : t.val / 16 < 16 := by omega
  rw [accAt_congr V c ht t.isLt (by omega), accAt_inv V c (t.val / 16) hp 15 (by norm_num) (by omega) b r, upto_last]
  exact inf_blocks (fun m => Chamfer.dist (rows V c) (cols V c) b (at512 (rowBlk t) r) m)

/-- THE RESULT ARRAY after the call: the array of row minima. -/
theorem final (c : Dev nD) : (dat V c).arrAt 2 cfg0.N = dxy (rows V c) (cols V c) :=
  (dat V c).arrAt_eq_of_cover 2 (dxy (rows V c) (cols V c)) (flushed_eq V c) fun i => by
    have hi0 : (i 0).val < 4 := (i 0).isLt
    have hi1 : (i 1).val < 8192 := (i 1).isLt
    have hN : cfg0.N = 256 := N_0
    obtain ⟨t, htv⟩ : ∃ t : Fin cfg0.N, t.val = 16 * ((i 1).val / 512) + 15 := ⟨⟨16 * ((i 1).val / 512) + 15, by omega⟩, rfl⟩
    obtain ⟨-, -, -, -, -, -, g0, g1⟩ := idxs t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t (0 : Fin 2) * 4 ≤ (i 0).val ∧ (i 0).val < win0_2.index t (0 : Fin 2) * 4 + 4; rw [g0]; omega
    | ⟨1, _⟩ => show win0_2.index t (1 : Fin 2) * 512 ≤ (i 1).val ∧ (i 1).val < win0_2.index t (1 : Fin 2) * 512 + 512; rw [g1]; omega

end Cert.KernelIdeal.Reg0

end
-- ==== Proof.KI.Out1.lean ====
/-
  Region 1, the values: the store of column block 0 leaves the block's row minima in the output buffer, the store of a
  later column block leaves the minimum of the running contents and the block's row minima; so the running contents
  after each point are an explicit chain of the two payloads.
-/
import proofs.«103180_j3006477107867_1_alg».proof.Proof.KI.Body1
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Column block 0 leaves the row minima of the block of squared distances. -/
theorem outA_eq (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc1 : k1_cond1 i = 1#1) (hc2 : ¬ k1_cond2 i = 1#1) (x0 x1 : Vec F S4x512x3 .f32) :
    outA c i a2 h2 a3 h3 a4 h4 hc1 hc2 x0 x1 = k1_pay2 x0 x1 := by
  unfold outA
  rw [View.read_writes_eq_canon _ _ _ (coverA c i a2 h2 a3 h3 a4 h4 hc1 hc2 x0 x1)]
  unfold kernelRunA
  dsimp only
  sl_unfold_words
  rw [View.canon_unit_zero hz2]
  simp only [View.readAt_eq_ld, h2.read_unread, h3.read_unread, View.ld_unit_zero (S := S4x512x3) hz3]

/-- A later column block leaves the minimum of the running contents and the block's row minima. -/
theorem outB_eq (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc1 : ¬ k1_cond1 i = 1#1) (hc2 : k1_cond2 i = 1#1) (x0 x1 : Vec F S4x512x3 .f32) (xo : Vec F S4x512 .f32) :
    outB c i a2 h2 a3 h3 a4 h4 hc1 hc2 x0 x1 xo = k1_pay1 (k1_pay2 x0 x1) xo := by
  unfold outB
  rw [View.read_writes_eq_canon _ _ _ (coverB c i a2 h2 a3 h3 a4 h4 hc1 hc2 x0 x1 xo)]
  unfold kernelRunB
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

end Cert.KernelIdeal.Reg1

end
-- ==== Proof.KI.Val1.lean ====
/-
  Region 1, the result array on the extended reals.  With R the array the row window reads and C the array the column
  window reads, the block of point t = 16 p + q pairs rows 512 p .. 512 p + 511 of R with rows 512 q .. 512 q + 511 of C.
  After point 16 p + k the output buffer holds, at (b, r), the minimum over the column blocks 0..k and their 512 columns of
  the squared distance between row 512 p + r of R and that column of C (induction on k: block 0 stores its minima, a later
  block folds its minima in).  The buffer is written back after column block 15, when that minimum ranges over all 8192
  columns, and the 16 write-backs (one per row block) cover the result array: it ends as the array of row minima.
-/
import proofs.«103180_j3006477107867_1_alg».proof.Proof.KI.Out1
import proofs.«103180_j3006477107867_1_alg».proof.Proof.KI.Pay
import proofs.«103180_j3006477107867_1_alg».proof.Proof.Spec

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer

variable (V : (c : Dev nD) → (b : Ref sig .tc) → Buf (Elt Ideal) ((c : Thread nD τ).loc b))

/-- The array the row window reads, and the array the column window reads. -/
abbrev rows (c : Dev nD) : FVec Ideal Pts .f32 := V c main_arg1
abbrev cols (c : Dev nD) : FVec Ideal Pts .f32 := V c main_arg0

/-- The printed index maps over the grid: the row window and the output follow the row block `t / 16`, the column window
    the column block `t % 16`; every other block coordinate is 0. -/
theorem idxs : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

def rowBlk (t : Fin cfg1.N) : Fin 16 := ⟨t.val / 16, by have := t.isLt; have h : cfg1.N = 256 := N_1; omega⟩
def colBlk (t : Fin cfg1.N) : Fin 16 := ⟨t.val % 16, Nat.mod_lt _ (by norm_num)⟩

/-- The row window's block at point `t` is rows `512 (t / 16) + r` of its array. -/
theorem iblk0_apply (c : Dev nD) (t : Fin cfg1.N) (b : Fin 4) (r : Fin 512) (k : Fin 3) :
    iblk V c 0 t (ix3 b r k) = rows V c (ix3 b (at512 (rowBlk t) r) k) := by
  obtain ⟨h0, h1, h2, -⟩ := idxs t
  show V c main_arg1 (((cfg1.win 0).blk t).view.emb (ix3 b r k)) = V c main_arg1 (ix3 b (at512 (rowBlk t) r) k)
  refine congrArg _ (funext fun a => Fin.ext ?_)
  match a with
  | ⟨0, _⟩ => show win1_0.index t (0 : Fin 3) * 4 + 1 * b.val = b.val; rw [h0]; omega
  | ⟨1, _⟩ => show win1_0.index t (1 : Fin 3) * 512 + 1 * r.val = 512 * (t.val / 16) + r.val; rw [h1]; omega
  | ⟨2, _⟩ => show win1_0.index t (2 : Fin 3) * 3 + 1 * k.val = k.val; rw [h2]; omega

/-- The column window's block at point `t` is rows `512 (t % 16) + j` of its array. -/
theorem iblk1_apply (c : Dev nD) (t : Fin cfg1.N) (b : Fin 4) (j : Fin 512) (k : Fin 3) :
    iblk V c 1 t (ix3 b j k) = cols V c (ix3 b (at512 (colBlk t) j) k) := by
  obtain ⟨-, -, -, h0, h1, h2, -⟩ := idxs t
  show V c main_arg0 (((cfg1.win 1).blk t).view.emb (ix3 b j k)) = V c main_arg0 (ix3 b (at512 (colBlk t) j) k)
  refine congrArg _ (funext fun a => Fin.ext ?_)
  match a with
  | ⟨0, _⟩ => show win1_1.index t (0 : Fin 3) * 4 + 1 * b.val = b.val; rw [h0]; omega
  | ⟨1, _⟩ => show win1_1.index t (1 : Fin 3) * 512 + 1 * j.val = 512 * (t.val % 16) + j.val; rw [h1]; omega
  | ⟨2, _⟩ => show win1_1.index t (2 : Fin 3) * 3 + 1 * k.val = k.val; rw [h2]; omega

/-- The body's arrangement of the squared distance, on the point's blocks, is the specification's squared distance between
    the corresponding rows of the two arrays: the inner product accumulated from the left is the sum over the three
    coordinates. -/
theorem blockDist_at (c : Dev nD) (t : Fin cfg1.N) (b : Fin 4) (r j : Fin 512) :
    Pay.blockDist (iblk V c 0 t) (iblk V c 1 t) b r j
      = Chamfer.dist (rows V c) (cols V c) b (at512 (rowBlk t) r) (at512 (colBlk t) j) := by
  unfold Pay.blockDist Chamfer.dist Chamfer.sq Chamfer.dot
  simp only [iblk0_apply, iblk1_apply, Fin.sum_univ_three]

/-- The least squared distance from row `n` of the row array to the rows of column block `q`. -/
def rowMin (c : Dev nD) (b : Fin 4) (n : Fin 8192) (q : Fin 16) : EReal :=
  Finset.univ.inf fun j : Fin 512 => Chamfer.dist (rows V c) (cols V c) b n (at512 q j)

/-- The block minima the body computes at point `t`. -/
theorem pay_at (c : Dev nD) (t : Fin cfg1.N) (b : Fin 4) (r : Fin 512) :
    k1_pay2 (F := Ideal) (iblk V c 0 t) (iblk V c 1 t) (ix2 b r) = rowMin V c b (at512 (rowBlk t) r) (colBlk t) :=
  (Pay.pay2_apply1 _ _ b r).trans (Finset.inf_congr rfl fun j _ => blockDist_at V c t b r j)

theorem accAt_congr (c : Dev nD) {n n' : ℕ} (e : n = n') (h : n < cfg1.N) (h' : n' < cfg1.N) :
    accAt V c n h = accAt V c n' h' := by subst e; rfl

/-- THE RUNNING MINIMUM: after point `16 p + k` the output buffer holds the minimum over column blocks `0..k`. -/
theorem accAt_inv (c : Dev nD) (p : ℕ) (hp : p < 16) : ∀ (k : ℕ) (hk : k < 16) (h : 16 * p + k < cfg1.N) (b : Fin 4) (r : Fin 512),
    accAt V c (16 * p + k) h (ix2 b r) = (upto k).inf fun q => rowMin V c b (at512 ⟨p, hp⟩ r) q
  | 0, hk, h, b, r => by
    have h0 : (⟨16 * p + 0, h⟩ : Fin cfg1.N).val % 16 = 0 := by show (16 * p + 0) % 16 = 0; omega
    have e1 : rowBlk ⟨16 * p + 0, h⟩ = ⟨p, hp⟩ := Fin.ext (by show (16 * p + 0) / 16 = p; omega)
    have e2 : colBlk ⟨16 * p + 0, h⟩ = (0 : Fin 16) := Fin.ext (by show (16 * p + 0) % 16 = 0; omega)
    rw [accAt_A V c ⟨16 * p + 0, h⟩ h0, outA_eq, pay_at, upto_zero, Finset.inf_singleton, e1, e2]
  | k + 1, hk, h, b, r => by
    have h0 : ¬ (⟨16 * p + (k + 1), h⟩ : Fin cfg1.N).val % 16 = 0 := by show ¬ (16 * p + (k + 1)) % 16 = 0; omega
    have e1 : rowBlk ⟨16 * p + (k + 1), h⟩ = ⟨p, hp⟩ := Fin.ext (by show (16 * p + (k + 1)) / 16 = p; omega)
    have e2 : colBlk ⟨16 * p + (k + 1), h⟩ = (⟨k + 1, hk⟩ : Fin 16) := Fin.ext (by show (16 * p + (k + 1)) % 16 = k + 1; omega)
    have hk' : 16 * p + k < cfg1.N := by omega
    rw [accAt_B V c ⟨16 * p + (k + 1), h⟩ h0, outB_eq, Pay.pay1_apply1, pay_at, e1, e2,
      accAt_congr V c (show (⟨16 * p + (k + 1), h⟩ : Fin cfg1.N).val - 1 = 16 * p + k from by show 16 * p + (k + 1) - 1 = 16 * p + k; omega) _ hk',
      accAt_inv c p hp k (by omega) hk' b r, upto_succ k hk, Finset.inf_insert]
    exact min_comm _ _

/-- WHAT A WRITE-BACK WRITES: after column block 15 the buffer holds the row minima over all 8192 columns. -/
theorem flushed_eq (c : Dev nD) (t : Fin cfg1.N) (hf : (cfg1.win 2).flush t = true) :
    (dat V c).flushed 2 t = ((cfg1.win 2).blk t).view.read (Elt Ideal) (dxy (rows V c) (cols V c)) := by
  have h15 : t.val % 16 = 15 := (flush1_2 t).mp hf
  obtain ⟨-, -, -, -, -, -, g0, g1⟩ := idxs t
  show (cfg1.win 2).cut (grid1.coords t) ((dat V c).after 2 t) = _
  rw [after_2]
  funext y
  obtain ⟨b, r, rfl⟩ : ∃ (b : Fin 4) (r : Fin 512), y = ix2 b r := ⟨y 0, y 1, eq_ix2 y⟩
  show accAt V c t.val t.isLt (ix2 b r) = dxy (rows V c) (cols V c) (((cfg1.win 2).blk t).view.emb (ix2 b r))
  have hemb : ((cfg1.win 2).blk t).view.emb (ix2 b r) = ix2 b (at512 (rowBlk t) r) := by
    funext a; apply Fin.ext
    match a with
    | ⟨0, _⟩ => show win1_2.index t (0 : Fin 2) * 4 + 1 * b.val = b.val; rw [g0]; omega
    | ⟨1, _⟩ => show win1_2.index t (1 : Fin 2) * 512 + 1 * r.val = 512 * (t.val / 16) + r.val; rw [g1]; omega
  rw [hemb]
  have hN : cfg1.N = 256 := N_1
  have hlt := t.isLt
  have ht : t.val = 16 * (t.val / 16) + 15 := by omega
  have hp : t.val / 16 < 16 := by omega
  rw [accAt_congr V c ht t.isLt (by omega), accAt_inv V c (t.val / 16) hp 15 (by norm_num) (by omega) b r, upto_last]
  exact inf_blocks (fun m => Chamfer.dist (rows V c) (cols V c) b (at512 (rowBlk t) r) m)

/-- THE RESULT ARRAY after the call: the array of row minima. -/
theorem final (c : Dev nD) : (dat V c).arrAt 2 cfg1.N = dxy (rows V c) (cols V c) :=
  (dat V c).arrAt_eq_of_cover 2 (dxy (rows V c) (cols V c)) (flushed_eq V c) fun i => by
    have hi0 : (i 0).val < 4 := (i 0).isLt
    have hi1 : (i 1).val < 8192 := (i 1).isLt
    have hN : cfg1.N = 256 := N_1
    obtain ⟨t, htv⟩ : ∃ t : Fin cfg1.N, t.val = 16 * ((i 1).val / 512) + 15 := ⟨⟨16 * ((i 1).val / 512) + 15, by omega⟩, rfl⟩
    obtain ⟨-, -, -, -, -, -, g0, g1⟩ := idxs t
    refine ⟨t, (flush1_2 t).mpr (by omega), ?_⟩
    show i ∈ ((View.whole main_v1).slice (win1_2.rect t)).set
    rw [View.set_slice_whole, Rect.mem_set_unit]
    intro a
    match a with
    | ⟨0, _⟩ => show win1_2.index t (0 : Fin 2) * 4 ≤ (i 0).val ∧ (i 0).val < win1_2.index t (0 : Fin 2) * 4 + 4; rw [g0]; omega
    | ⟨1, _⟩ => show win1_2.index t (1 : Fin 2) * 512 ≤ (i 1).val ∧ (i 1).val < win1_2.index t (1 : Fin 2) * 512 + 512; rw [g1]; omega

end Cert.KernelIdeal.Reg1

end
-- ==== Proof.Tail.lean ====
/-
  What both programs do with the two arrays of minima: multiply each row by the batch weight, sum each row and divide by
  8192, add the two quotients, sum over the 4 batches and divide by 4.  The two programs apply literally the same host
  operations here, so the chain is carried as one function and never opened.
  Also: exchanging the two point sets exchanges the two arrays of minima, because the squared distance is symmetric
  (addition and multiplication commute on the extended reals).
-/
import Idealize.ShloMosaic.PureOps
import proofs.«103180_j3006477107867_1_alg».proof.Proof.Spec

noncomputable section

open scoped BigOperators

namespace Cert.Chamfer

open Idealize.ShloMosaic Idealize.ShloMosaic.ValueIdx

abbrev Wts : Shape := ⟨1, ![4]⟩
abbrev WtsCol : Shape := ⟨2, ![4, 1]⟩
abbrev Sc : Shape := ⟨0, ![]⟩

/-- The weighted mean of the two arrays of minima (the shape facts are those the programs state). -/
def tail (hsc : Wts.ShapeCasts WtsCol) (hb : WtsCol.BroadcastsInDim Mins (![0, 1] : Fin 2 → Fin Mins.rank))
    (hr : Mins.ReducesTo [1] Wts) (h0 : 0 < Sc.numel) (hbs : Sc.BroadcastsInDim Wts (![] : Fin 0 → Fin Wts.rank))
    (hr0 : Wts.ReducesTo [0] Sc) (w : FVec Ideal Wts .f32) (a b : FVec Ideal Mins .f32) : FVec Ideal Sc .f32 :=
  Host.divf (F := Ideal)
    (Host.reduceAdd (F := Ideal)
      (addf
        (Host.divf (F := Ideal)
          (Host.reduceAdd (F := Ideal) (mulf (broadcastInDim Mins ![0, 1] hb (shapeCast _ w hsc)) a)
            (constant (F := Ideal) Sc .f32 0x00000000#32) hr h0)
          (broadcastInDim Wts ![] hbs (constant (F := Ideal) Sc .f32 0x46000000#32)))
        (Host.divf (F := Ideal)
          (Host.reduceAdd (F := Ideal) (mulf (broadcastInDim Mins ![0, 1] hb (shapeCast _ w hsc)) b)
            (constant (F := Ideal) Sc .f32 0x00000000#32) hr h0)
          (broadcastInDim Wts ![] hbs (constant (F := Ideal) Sc .f32 0x46000000#32))))
      (constant (F := Ideal) Sc .f32 0x00000000#32) hr0 h0)
    (constant (F := Ideal) Sc .f32 0x40800000#32)

/-- The squared distance is symmetric in its two points. -/
theorem dist_swap (x y : FVec Ideal Pts .f32) (b : Fin 4) (n m : Fin 8192) : dist y x b m n = dist x y b n m := by
  unfold dist dot
  rw [add_comm (sq y b m) (sq x b n)]
  congr 2
  exact Finset.sum_congr rfl fun k _ => mul_comm _ _

/-- Row minima with the point sets exchanged are the column minima. -/
theorem dxy_swap (x y : FVec Ideal Pts .f32) : dxy y x = dyx x y :=
  funext fun i => Finset.inf_congr rfl fun n _ => dist_swap x y (i 0) n (i 1)

end Cert.Chamfer

end
-- ==== Proof.KI.Value.lean ====
/-
  The result of the idealized kernel program on the extended reals.  The last host operation's buffer holds the shared
  weighted-mean chain applied to the weights and the two calls' output arrays; the first call leaves the row minima of the
  squared distances from the first point set to the second, the second call (run with the point sets exchanged) leaves
  the row minima from the second set to the first, which are the column minima of the same matrix because the squared
  distance is symmetric.
-/
import proofs.«103180_j3006477107867_1_alg».proof.Proof.KI.Args
import proofs.«103180_j3006477107867_1_alg».proof.Proof.KI.Val0
import proofs.«103180_j3006477107867_1_alg».proof.Proof.KI.Val1
import proofs.«103180_j3006477107867_1_alg».proof.Proof.Tail
import Idealize.ShloMosaic.Lib.StableHlo.Run

set_option maxRecDepth 16384

noncomputable section

namespace Cert.KernelIdeal.Whole

open Cert.KernelIdeal Cert.KernelIdeal.Gen Cert.Chamfer
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer at the end is the shared chain of the weights and the two output arrays as the host stretch
    finds them. -/
theorem Wd_v15 (c : Dev nD) :
    (Wd m ρ c (Proc.devRef .tc main_v15) : Sc.Idx → EReal)
      = tail shapeCasts_S4_S4x1 bcast_S4x1_S4x8192_0_1 reducesTo_S4x8192_S4_d1 h_S_ bcast_S_S4 reducesTo_S4_S_d0
          (Wc m ρ c (Proc.devRef .tc main_arg2)) (Wc m ρ c (Proc.devRef .tc main_v0)) (Wc m ρ c (Proc.devRef .tc main_v1)) := by
  show StableHlo.after hostOps2 (Wc m ρ c) (Proc.devRef .tc main_v15) = _
  generalize Wc m ρ c = W
  unfold tail
  after_results
  rfl

/-- The first call's output array at the host stretch: the row minima. -/
theorem Wc_v0 (c : Dev nD) :
    (Wc m ρ c (Proc.devRef .tc main_v0) : Mins.Idx → EReal)
      = dxy (m ((c : Thread nD τ).loc main_arg0)) (m ((c : Thread nD τ).loc main_arg1)) :=
  calc (Wc m ρ c (Proc.devRef .tc main_v0) : Mins.Idx → EReal)
    _ = Wb m ρ c (Proc.devRef .tc main_v0) := Wc_of_ne m ρ c main_v0 (by decide)
    _ = (Reg0.dat (Va m ρ) c).arrAt 2 cfg0.N := Wb_arr m ρ c 2
    _ = dxy (Reg0.rows (Va m ρ) c) (Reg0.cols (Va m ρ) c) := Reg0.final (Va m ρ) c
    _ = dxy (m ((c : Thread nD τ).loc main_arg0)) (m ((c : Thread nD τ).loc main_arg1)) := rfl

/-- The second call's output array: the column minima. -/
theorem Wc_v1 (c : Dev nD) :
    (Wc m ρ c (Proc.devRef .tc main_v1) : Mins.Idx → EReal)
      = dyx (m ((c : Thread nD τ).loc main_arg0)) (m ((c : Thread nD τ).loc main_arg1)) :=
  calc (Wc m ρ c (Proc.devRef .tc main_v1) : Mins.Idx → EReal)
    _ = (Reg1.dat (Vb m ρ) c).arrAt 2 cfg1.N := Wc_arr m ρ c 2
    _ = dxy (Reg1.rows (Vb m ρ) c) (Reg1.cols (Vb m ρ) c) := Reg1.final (Vb m ρ) c
    _ = dxy (m ((c : Thread nD τ).loc main_arg1)) (m ((c : Thread nD τ).loc main_arg0)) := by
        rw [show Reg1.rows (Vb m ρ) c = m ((c : Thread nD τ).loc main_arg1) from Wb_main_arg1 m ρ c,
          show Reg1.cols (Vb m ρ) c = m ((c : Thread nD τ).loc main_arg0) from Wb_main_arg0 m ρ c]
    _ = dyx (m ((c : Thread nD τ).loc main_arg0)) (m ((c : Thread nD τ).loc main_arg1)) := dxy_swap _ _

/-- THE KERNEL PROGRAM'S RESULT as a function of its arguments. -/
theorem kernel_value (c : Dev nD) :
    (Wd m ρ c (Proc.devRef .tc main_v15) : Sc.Idx → EReal)
      = tail shapeCasts_S4_S4x1 bcast_S4x1_S4x8192_0_1 reducesTo_S4x8192_S4_d1 h_S_ bcast_S_S4 reducesTo_S4_S_d0
          (m ((c : Thread nD τ).loc main_arg2))
          (dxy (m ((c : Thread nD τ).loc main_arg0)) (m ((c : Thread nD τ).loc main_arg1)))
          (dyx (m ((c : Thread nD τ).loc main_arg0)) (m ((c : Thread nD τ).loc main_arg1))) := by
  rw [Wd_v15, Wc_main_arg2, Wc_v0, Wc_v1]

end Cert.KernelIdeal.Whole

end
-- ==== Proof.RefMin.lean ====
import proofs.«103180_j3006477107867_1_alg».proof.Proof.Gen.ReferenceIdeal.Read
import proofs.«103180_j3006477107867_1_alg».proof.Proof.Spec
import Idealize.ShloMosaic.PureOps.Reduce
import Idealize.ShloMosaic.PureOps.Ideal.Laws
import Idealize.ShloMosaic.Lib.ValueIdx

/-
  The reference program's distance matrix and its two minima, read on the extended reals.
  The matrix entry at (b, n, m) is (|x_n|^2 + |y_m|^2) - 2 <x_n, y_m>, each norm a sum of three squares started from
  zero and the inner product a sum of three products.  A minimum taken along one axis with the initial value the top
  element is the infimum, over that axis's 8192 coordinates, of the entries.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- the distance matrix at an index -/
theorem dist_apply (x y : (⟨S4x8192x3, .f32⟩ : BufTy).Contents (Elt Ideal)) (b : Fin 4) (n m : Fin 8192) :
    val_main_v12 (F := Ideal) x y (ix3 b n m) = Cert.Chamfer.dist x y b n m := by
  rw [val_main_v12_apply, val_main_v9_apply, val_main_v7_apply, val_main_v8_apply, val_main_v5_apply, val_main_v6_apply,
    val_main_v1_apply, val_main_v3_apply, val_main_v11_apply, val_main_v10_apply, val_main_v4_apply,
    val_main_cst_apply, val_main_cst_0_apply, val_main_cst_1_apply]
  -- the index maps of the broadcasts, the sums and the contraction, composed, keep (b, n) or (b, m) and insert k
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, Ideal.mulf_def, Ideal.addf_def, Ideal.subf_def,
    Ideal.ofBits_def, Ideal.ofBits_zero_f32, zero_add]
  rfl

/-- The float word of plus infinity is the top element. -/
theorem ofBits_top : Ideal.ofBits .f32 0x7F800000#32 = (⊤ : EReal) := by simp [Ideal.ofBits, Ideal.ieee]

/-- A minimum taken along one axis from the top element is, at each reduced index, the infimum over that axis's
    coordinates of the source at the reduced index with the coordinate inserted. Stated for any shapes. -/
theorem reduce_min_top {s t u : Shape} {a : Fin s.rank} (D : s.Idx → EReal) (init : u.Idx → EReal)
    (h' : s.ReducesTo [a] t) (h : s.Reduces [a] t) (hu : 0 < u.numel) (j : t.Idx)
    (hinit : init (Shape.Idx.first hu) = (⊤ : EReal)) :
    Host.reduce (FloatOps.minimumf (F := Ideal) (φ := .f32)) D init h' hu j
      = Finset.univ.inf fun k : Fin (s.size a) => D (h.lift j k) := by
  rw [Host.reduce_eq_fold_single (FloatOps.minimumf (F := Ideal) (φ := .f32)) D init h' h hu j, hinit]
  rfl

/-- the minimum over the points of y -/
theorem v13_eq (x y : (⟨S4x8192x3, .f32⟩ : BufTy).Contents (Elt Ideal)) : val_main_v13 (F := Ideal) x y = Cert.Chamfer.dxy x y := by
  funext i
  obtain ⟨b, n, rfl⟩ : ∃ (b : Fin 4) (n : Fin 8192), i = ix2 b n := ⟨i 0, i 1, eq_ix2 i⟩
  have hD : ∀ m : Fin 8192, val_main_v12 (F := Ideal) x y (ix3 b n m) = Cert.Chamfer.dist x y b n m :=
    fun m => dist_apply x y b n m
  show val_main_v13 (F := Ideal) x y (ix2 b n) = Finset.univ.inf fun m : Fin 8192 => Cert.Chamfer.dist x y b n m
  unfold val_main_v13
  generalize val_main_v12 (F := Ideal) x y = D at hD ⊢
  have hR : Shape.Reduces S4x8192x8192 [2] S4x8192 := by decide
  have key := reduce_min_top (s := S4x8192x8192) (t := S4x8192) (u := S_) D (val_main_cst_2 (F := Ideal))
    reducesTo_S4x8192x8192_S4x8192_d2 hR h_S_ (ix2 b n) (by rw [val_main_cst_2_apply]; exact ofBits_top)
  refine key.trans ?_
  refine Finset.inf_congr rfl fun k _ => ?_
  -- the reduced index (b, n) with k inserted on the last axis is (b, n, k)
  have e : hR.lift (ix2 b n) k = ix3 b n k :=
    funext fun c => Fin.ext (by match c with | ⟨0, _⟩ => rfl | ⟨1, _⟩ => rfl | ⟨2, _⟩ => rfl)
  rw [e]
  exact hD k

/-- the minimum over the points of x -/
theorem v14_eq (x y : (⟨S4x8192x3, .f32⟩ : BufTy).Contents (Elt Ideal)) : val_main_v14 (F := Ideal) x y = Cert.Chamfer.dyx x y := by
  funext i
  obtain ⟨b, m, rfl⟩ : ∃ (b : Fin 4) (m : Fin 8192), i = ix2 b m := ⟨i 0, i 1, eq_ix2 i⟩
  have hD : ∀ n : Fin 8192, val_main_v12 (F := Ideal) x y (ix3 b n m) = Cert.Chamfer.dist x y b n m :=
    fun n => dist_apply x y b n m
  show val_main_v14 (F := Ideal) x y (ix2 b m) = Finset.univ.inf fun n : Fin 8192 => Cert.Chamfer.dist x y b n m
  unfold val_main_v14
  generalize val_main_v12 (F := Ideal) x y = D at hD ⊢
  have hR : Shape.Reduces S4x8192x8192 [1] S4x8192 := by decide
  have key := reduce_min_top (s := S4x8192x8192) (t := S4x8192) (u := S_) D (val_main_cst_3 (F := Ideal))
    reducesTo_S4x8192x8192_S4x8192_d1 hR h_S_ (ix2 b m) (by rw [val_main_cst_3_apply]; exact ofBits_top)
  refine key.trans ?_
  refine Finset.inf_congr rfl fun k _ => ?_
  -- the reduced index (b, m) with k inserted on the middle axis is (b, k, m)
  have e : hR.lift (ix2 b m) k = ix3 b k m :=
    funext fun c => Fin.ext (by match c with | ⟨0, _⟩ => rfl | ⟨1, _⟩ => rfl | ⟨2, _⟩ => rfl)
  rw [e]
  exact hD k

end Cert.ReferenceIdeal.RefValue

end
-- ==== Proof.RefTail.lean ====
/-
  The reference program's result on the extended reals: the shared weighted-mean chain applied to the weights, the array
  of minima over the second point set and the array of minima over the first.
-/
import proofs.«103180_j3006477107867_1_alg».proof.Proof.RefMin
import proofs.«103180_j3006477107867_1_alg».proof.Proof.Tail

noncomputable section

namespace Cert.ReferenceIdeal.RefValue

open Cert.ReferenceIdeal Cert.ReferenceIdeal.Gen Cert.ReferenceIdeal.Read Idealize.ShloMosaic Cert.Chamfer

theorem ref_value (x y : (⟨S4x8192x3, .f32⟩ : BufTy).Contents (Elt Ideal)) (w : (⟨S4, .f32⟩ : BufTy).Contents (Elt Ideal)) :
    val_main_v28 (F := Ideal) x y w
      = tail shapeCasts_S4_S4x1 bcast_S4x1_S4x8192_0_1 reducesTo_S4x8192_S4_d1 h_S_ bcast_S_S4 reducesTo_S4_S_d0 w (dxy x y) (dyx x y) := by
  rw [← v13_eq, ← v14_eq]
  rfl

end Cert.ReferenceIdeal.RefValue

end
-- ==== Proof.lean ====
/-
  The certificate of the Chamfer-loss kernel against its reference.

  The kernel program runs two tiled pairwise-distance calls — the second with the two point sets exchanged — and then
  weights, averages and sums the two arrays of minima on the host; the reference builds the whole 8192 x 8192 matrix of
  squared distances once and takes its row minima and its column minima.  On the extended reals the two results are one
  function of the arguments: a running minimum over the 16 column blocks of a row block is the minimum over all 8192
  columns; the inner product accumulated coordinate by coordinate is the sum over the three coordinates; and the squared
  distance is symmetric, so the second call's row minima are the matrix's column minima.  None of these laws needs the
  inputs to be finite (only commutativity and associativity of the sum, the product and the minimum are used), so the
  precondition is never opened.
  Each frame claim is the whole-program run read at the argument arrays; the ideal pass rewrote nothing, so the
  idealization claim is trivial.
-/
import proofs.«103180_j3006477107867_1_alg».proof.Defs
import proofs.«103180_j3006477107867_1_alg».proof.Proof.Gen.Kernel
import proofs.«103180_j3006477107867_1_alg».proof.Proof.Gen.KernelIdeal
import proofs.«103180_j3006477107867_1_alg».proof.Proof.Gen.ReferenceIdeal
import proofs.«103180_j3006477107867_1_alg».proof.Proof.Gen.Pre_finite_inputs
import proofs.«103180_j3006477107867_1_alg».proof.Proof.Gen.ReferenceIdeal.Run
import proofs.«103180_j3006477107867_1_alg».proof.Proof.Gen.ReferenceIdeal.Read
import proofs.«103180_j3006477107867_1_alg».proof.Proof.KB.Args
import proofs.«103180_j3006477107867_1_alg».proof.Proof.KI.Args
import proofs.«103180_j3006477107867_1_alg».proof.Proof.KI.Value
import proofs.«103180_j3006477107867_1_alg».proof.Proof.RefTail
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Whole.frame_all (F := Bits) m ρ

/-- So does the idealized kernel program. -/
theorem frame_ki : Cert.frame_KernelIdeal := fun m ρ _ => Cert.KernelIdeal.Whole.frame_all (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the same result: the shared weighted mean of the row minima and the column minima of the
    matrix of squared distances. -/
theorem algebraic : Cert.algebraic_KernelIdeal_ReferenceIdeal := by
  intro m ρ m' ρ' _ hagree
  refine ⟨fun c => Cert.KernelIdeal.Whole.Wd m ρ c (Proc.devRef .tc Cert.KernelIdeal.main_v15), ?_, ?_⟩
  · exact (θ_run Cert.KernelIdeal.defs _ _).mono (fun r h c =>
      ⟨h c _ (Cert.KernelIdeal.Whole.mem_uc Cert.KernelIdeal.main_v15 (by decide)),
        (h c _ (Cert.KernelIdeal.Whole.mem_uc Cert.KernelIdeal.main_arg0 (by decide))).trans (Cert.KernelIdeal.Whole.Wd_main_arg0 m ρ c),
        (h c _ (Cert.KernelIdeal.Whole.mem_uc Cert.KernelIdeal.main_arg1 (by decide))).trans (Cert.KernelIdeal.Whole.Wd_main_arg1 m ρ c),
        (h c _ (Cert.KernelIdeal.Whole.mem_uc Cert.KernelIdeal.main_arg2 (by decide))).trans (Cert.KernelIdeal.Whole.Wd_main_arg2 m ρ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.RefValue.ref_value, (hagree c).1, (hagree c).2.1, (hagree c).2.2]
    exact (Cert.KernelIdeal.Whole.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
